-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S64x32 .f32) (main_arg9 : FVec F S32 .f32) (main_arg10 : FVec F S32x1 .f32) (main_arg11 : FVec F S1 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg10
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x32 .f32) (main_arg9 : FVec F S32 .f32) (main_arg10 : FVec F S32x1 .f32) (main_arg11 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x32 .f32) (main_arg9 : FVec F S32 .f32) (main_arg10 : FVec F S32x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S10000x64 : Shape := ⟨2, ![10000, 64]⟩
abbrev S10000x1 : Shape := ⟨2, ![10000, 1]⟩
abbrev S1x64 : Shape := ⟨2, ![1, 64]⟩
abbrev S5000x1 : Shape := ⟨2, ![5000, 1]⟩
abbrev S1x32 : Shape := ⟨2, ![1, 32]⟩
abbrev S1x1 : Shape := ⟨2, ![1, 1]⟩
abbrev S5000x32 : Shape := ⟨2, ![5000, 32]⟩

abbrev nBuf : Space → Nat
  | .hbm => 95
  | .vmem => 50
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S_, .f32⟩
  | .hbm, ⟨27, _⟩ => ⟨S1600000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000, .f32⟩
  | .hbm, ⟨51, _⟩ => ⟨S1600000, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S100000x1, .f32⟩
  | .hbm, ⟨56, _⟩ => ⟨S1600000x1, .f32⟩
  | .hbm, ⟨57, _⟩ => ⟨S100000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S1600000x64, .f32⟩
  | .hbm, ⟨68, _⟩ => ⟨S_, .f32⟩
  | .hbm, ⟨69, _⟩ => ⟨S100000x64, .f32⟩
  | .hbm, ⟨70, _⟩ => ⟨S1600000x1, .i32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x64, .f32⟩
  | .hbm, ⟨84, _⟩ => ⟨S1600000x64, .f32⟩
  | .hbm, ⟨85, _⟩ => ⟨S_, .f32⟩
  | .hbm, ⟨86, _⟩ => ⟨S100000x64, .f32⟩
  | .hbm, ⟨87, _⟩ => ⟨S1600000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S1x64, .f32⟩
  | .hbm, ⟨92, _⟩ => ⟨S1x32, .f32⟩
  | .hbm, ⟨93, _⟩ => ⟨S1x1, .f32⟩
  | .hbm, ⟨94, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S10000x1, .f32⟩
  | .local _ .vmem, ⟨8, _⟩ => ⟨S10000x1, .f32⟩
  | .local _ .vmem, ⟨9, _⟩ => ⟨S10000x64, .f32⟩
  | .local _ .vmem, ⟨10, _⟩ => ⟨S10000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | .local _ .vmem, ⟨25, _⟩ => ⟨S10000x64, .f32⟩
  | .local _ .vmem, ⟨26, _⟩ => ⟨S10000x64, .f32⟩
  | .local _ .vmem, ⟨27, _⟩ => ⟨S10000x1, .f32⟩
  | .local _ .vmem, ⟨28, _⟩ => ⟨S10000x1, .f32⟩
  | .local _ .vmem, ⟨29, _⟩ => ⟨S10000x64, .f32⟩
  | .local _ .vmem, ⟨30, _⟩ => ⟨S10000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x1, .f32⟩
  | .local _ .vmem, ⟨36, _⟩ => ⟨S5000x1, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S64x64, .f32⟩
  | .local _ .vmem, ⟨43, _⟩ => ⟨S1x64, .f32⟩
  | .local _ .vmem, ⟨44, _⟩ => ⟨S64x32, .f32⟩
  | .local _ .vmem, ⟨45, _⟩ => ⟨S1x32, .f32⟩
  | .local _ .vmem, ⟨46, _⟩ => ⟨S32x1, .f32⟩
  | .local _ .vmem, ⟨47, _⟩ => ⟨S1x1, .f32⟩
  | .local _ .vmem, ⟨48, _⟩ => ⟨S5000x1, .f32⟩
  | .local _ .vmem, ⟨49, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_c_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg4_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg4_0 : Ref sig .tc := ⟨.vmem, 45, rfl⟩
abbrev cc6_stg5_0 : Ref sig .tc := ⟨.vmem, 46, rfl⟩
abbrev cc6_stg6_0 : Ref sig .tc := ⟨.vmem, 47, rfl⟩
abbrev cc6_stg7_0 : Ref sig .tc := ⟨.vmem, 48, rfl⟩
abbrev cc6_stg7_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem4_0 : DmaSem sig := 45
abbrev cc6_sem5_0 : DmaSem sig := 46
abbrev cc6_sem6_0 : DmaSem sig := 47
abbrev cc6_sem7_0 : DmaSem sig := 48
abbrev cc6_sem7_1 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![160], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S32x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x1 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  shapeCasts_S1600000_S1600000x1 : S1600000.ShapeCasts S1600000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S32_S1x32 : S32.ShapeCasts S1x32
  shapeCasts_S1_S1x1 : S1.ShapeCasts S1x1
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1600000x64.size a
  hwx1_0 : ∀ i : grid1.Coords, EltTy.bits .f32 = 32 ∨ (Rect.block (s := S1600000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1600000x1.size a
  hwx1_1 : ∀ i : grid1.Coords, EltTy.bits .f32 = 32 ∨ (Rect.block (s := S1600000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S1600000x64.size a
  hwx1_2 : ∀ i : grid1.Coords, EltTy.bits .f32 = 32 ∨ (Rect.block (s := S1600000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S1600000x64.size a
  hwx4_0 : ∀ i : grid4.Coords, EltTy.bits .f32 = 32 ∨ (Rect.block (s := S1600000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1600000x1.size a
  hwx4_1 : ∀ i : grid4.Coords, EltTy.bits .f32 = 32 ∨ (Rect.block (s := S1600000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S1600000x64.size a
  hwx4_2 : ∀ i : grid4.Coords, EltTy.bits .f32 = 32 ∨ (Rect.block (s := S1600000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x32.size a ≤ S64x32.size a
  hwx6_3 : ∀ i : grid6.Coords, EltTy.bits .f32 = 32 ∨ (Rect.block (s := S64x32) S64x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x32.size a ≤ S1x32.size a
  hwx6_4 : ∀ i : grid6.Coords, EltTy.bits .f32 = 32 ∨ (Rect.block (s := S1x32) S1x32.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S32x1.size a ≤ S32x1.size a
  hwx6_5 : ∀ i : grid6.Coords, EltTy.bits .f32 = 32 ∨ (Rect.block (s := S32x1) S32x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x1.size a ≤ S100000x1.size a
  hwx6_7 : ∀ i : grid6.Coords, EltTy.bits .f32 = 32 ∨ (Rect.block (s := S100000x1) S5000x1.size (cc6_transform_7 i) (hinb6_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v48) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v56) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v34) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v57) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v60) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v49) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v33) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v61) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v62) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v62) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v63) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg8) S64x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v64) S1x32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg10) S32x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v65) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v66) S5000x1.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩
abbrev S1x1 : Shape := ⟨2, ![1, 1]⟩

abbrev nBuf : Space → Nat
  | .hbm => 158
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x32, .f32⟩
  | 9 => ⟨S32, .f32⟩
  | 10 => ⟨S32x1, .f32⟩
  | 11 => ⟨S1, .f32⟩
  | 12 => ⟨S1x1600000, .i32⟩
  | 13 => ⟨S1600000, .i32⟩
  | 14 => ⟨S1x1600000, .i32⟩
  | 15 => ⟨S1600000, .i32⟩
  | 16 => ⟨S100000x64, .f32⟩
  | 17 => ⟨S_, .f32⟩
  | 18 => ⟨S100000, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S_, .f32⟩
  | 28 => ⟨S1600000, .f32⟩
  | 29 => ⟨S100000, .f32⟩
  | 30 => ⟨S_, .f32⟩
  | 31 => ⟨S100000, .f32⟩
  | 32 => ⟨S100000, .f32⟩
  | 33 => ⟨S100000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S1600000x1, .f32⟩
  | 63 => ⟨S1600000x64, .f32⟩
  | 64 => ⟨S1600000x64, .f32⟩
  | 65 => ⟨S_, .f32⟩
  | 66 => ⟨S100000x64, .f32⟩
  | 67 => ⟨S1600000x1, .i32⟩
  | 68 => ⟨S100000x64, .f32⟩
  | 69 => ⟨S_, .f32⟩
  | 70 => ⟨S100000, .f32⟩
  | 71 => ⟨S100000, .f32⟩
  | 72 => ⟨S100000x1, .f32⟩
  | 73 => ⟨S100000x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S100000x64, .f32⟩
  | 80 => ⟨S100000x64, .f32⟩
  | 81 => ⟨S_, .f32⟩
  | 82 => ⟨S100000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S_, .f32⟩
  | 92 => ⟨S1600000, .f32⟩
  | 93 => ⟨S100000, .f32⟩
  | 94 => ⟨S_, .f32⟩
  | 95 => ⟨S100000, .f32⟩
  | 96 => ⟨S100000, .f32⟩
  | 97 => ⟨S100000, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000, .f32⟩
  | 116 => ⟨S1600000, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x64, .f32⟩
  | 126 => ⟨S1600000x1, .f32⟩
  | 127 => ⟨S1600000x64, .f32⟩
  | _ => ⟨S100000x128, .f32⟩

abbrev hbmTy0_1 (i : Nat) : BufTy := match i % 128 with
  | 0 => ⟨S1600000x64, .f32⟩
  | 1 => ⟨S_, .f32⟩
  | 2 => ⟨S100000x64, .f32⟩
  | 3 => ⟨S1600000x1, .i32⟩
  | 4 => ⟨S100000x64, .f32⟩
  | 5 => ⟨S_, .f32⟩
  | 6 => ⟨S100000, .f32⟩
  | 7 => ⟨S100000, .f32⟩
  | 8 => ⟨S100000x1, .f32⟩
  | 9 => ⟨S100000x64, .f32⟩
  | 10 => ⟨S100000x64, .f32⟩
  | 11 => ⟨S100000x64, .f32⟩
  | 12 => ⟨S1x64, .f32⟩
  | 13 => ⟨S100000x64, .f32⟩
  | 14 => ⟨S100000x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S100000x64, .f32⟩
  | 21 => ⟨S100000x32, .f32⟩
  | 22 => ⟨S1x32, .f32⟩
  | 23 => ⟨S100000x32, .f32⟩
  | 24 => ⟨S100000x32, .f32⟩
  | 25 => ⟨S100000x32, .f32⟩
  | 26 => ⟨S100000x1, .f32⟩
  | 27 => ⟨S1x1, .f32⟩
  | 28 => ⟨S100000x1, .f32⟩
  | 29 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_c_12 : Ref sig .tc := ⟨.hbm, 83, rfl⟩
abbrev main_v57 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_v64 : Ref sig .tc := ⟨.hbm, 93, rfl⟩
abbrev main_cst_15 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_18 : Ref sig .tc := ⟨.hbm, 107, rfl⟩
abbrev main_v75 : Ref sig .tc := ⟨.hbm, 108, rfl⟩
abbrev main_v76 : Ref sig .tc := ⟨.hbm, 109, rfl⟩
abbrev main_c_19 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_20 : Ref sig .tc := ⟨.hbm, 117, rfl⟩
abbrev main_v83 : Ref sig .tc := ⟨.hbm, 118, rfl⟩
abbrev main_v84 : Ref sig .tc := ⟨.hbm, 119, rfl⟩
abbrev main_c_21 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_22 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_23 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KernelRun.lean ====
/-
  The idealized program's run with its result named.

  Every weakly fair execution of the program — seven tiled steps among stretches of whole-array operations —
  terminates without a fault, and in the final state the result buffer holds what the last boundary's contents
  say it holds (the seventh step's result array after its write-backs), while the twelve arguments are as launched.
  The boundary contents are the fold through the program: each stretch of whole-array operations applied in
  order, each tiled step's arrays replaced by what its write-backs leave.
-/
import proofs.«112770_j81913616269326_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v66) = W13 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v66 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c)⟩)

end Cert.KernelIdeal.Whole

end
-- ==== Proof.Spec.lean ====
/-
  The graph network's dense steps as functions of whole arrays, entry by entry.

  Every step that is computed tile by tile is, over the extended reals, one function of its whole operands:
  a matrix product (entry (n, j) is the sum over k of x (n, k) · w (k, j)); the edge messages scaled by their
  coefficients (row e of the gathered features times the coefficient of edge e); a layer's closing step
  (tanh of aggregate + feature · inverse degree + bias, the inverse degree a column, the bias a row); and the
  three-layer head (two dense layers with tanh, one without). Extents are variables so that one definition
  serves every layer.
-/
import Idealize.ShloMosaic.Lib.ValueIdx
import Idealize.ShloMosaic.PureOps.Ideal

noncomputable section

namespace Cert.Gcn

open Idealize.ShloMosaic Idealize.ShloMosaic.ValueIdx
open scoped BigOperators

/-- An `a × b` matrix of extended reals. -/
abbrev Mat (a b : Nat) : Type := FVec Ideal ⟨2, ![a, b]⟩ .f32

variable {a c b : Nat}

/-- The matrix product: entry (n, j) is the sum over k of x (n, k) · w (k, j). -/
def matProd (x : Mat a c) (w : Mat c b) : Mat a b :=
  fun i => ∑ k : Fin c, x (ix2 (i 0) k) * w (ix2 k (i 1))

/-- Each row scaled by its own coefficient: entry (e, j) is x (e, j) · s (e, 0). -/
def scaleRows (x : Mat a b) (s : Mat a 1) : Mat a b :=
  fun i => x i * s (ix2 (i 0) (0 : Fin 1))

/-- A layer's closing step: tanh (agg (n, j) + xl (n, j) · d (n, 0) + bias (0, j)). -/
def combine (agg xl : Mat a b) (d : Mat a 1) (bias : Mat 1 b) : Mat a b :=
  fun i => Ideal.tanh ((agg i + xl i * d (ix2 (i 0) (0 : Fin 1))) + bias (ix2 (0 : Fin 1) (i 1)))

/-- A dense layer before its activation: the product plus the bias row. -/
def affine (x : Mat a c) (w : Mat c b) (bias : Mat 1 b) : Mat a b :=
  fun i => matProd x w i + bias (ix2 (0 : Fin 1) (i 1))

/-- tanh, entry by entry. -/
def act (x : Mat a b) : Mat a b := fun i => Ideal.tanh (x i)

/-- A vector as a one-column matrix. -/
def colOf (v : FVec Ideal ⟨1, ![a]⟩ .f32) : Mat a 1 := fun i => v (ix1 (i 0))

/-- A vector as a one-row matrix. -/
def rowOf (v : FVec Ideal ⟨1, ![b]⟩ .f32) : Mat 1 b := fun i => v (ix1 (i 1))

/-- The rows `r 0, r 1, …` of a matrix. -/
def rows {a' : Nat} (r : Fin a' → Fin a) (A : Mat a b) : Mat a' b := fun y => A (ix2 (r (y 0)) (y 1))

/-- A product's rows are the products of the left operand's rows. -/
theorem matProd_rows {a' : Nat} (r : Fin a' → Fin a) (A : Mat a c) (W : Mat c b) :
    matProd (rows r A) W = rows r (matProd A W) := rfl

/-- So are a dense layer's. -/
theorem affine_rows {a' : Nat} (r : Fin a' → Fin a) (A : Mat a c) (W : Mat c b) (bias : Mat 1 b) :
    affine (rows r A) W bias = rows r (affine A W bias) := rfl

/-- The activation commutes with taking rows. -/
theorem act_rows {a' : Nat} (r : Fin a' → Fin a) (A : Mat a b) : act (rows r A) = rows r (act A) := rfl

section Network

variable {n e din d d1 d2 d3 : Nat}

/-- One graph-convolution layer over the transformed features `xl`: gather the features along the edges (`G`), scale
    each edge's row by its coefficient (`nc`), add the rows up at their target nodes (`S`), then close with the node's
    own feature over its degree (`dc`), the bias row and tanh. The gather and the scatter-add are parameters: they are
    whole-array operations this file never opens. -/
def layer (G : Mat n d → Mat e d) (S : Mat e d → Mat n d) (nc : Mat e 1) (dc : Mat n 1) (xl : Mat n d)
    (bias : Mat 1 d) : Mat n d :=
  combine (S (scaleRows (G xl) nc)) xl dc bias

/-- The three-layer head: two dense layers with tanh, one without. -/
def head (h : Mat n d) (w0 : Mat d d1) (b0 : Mat 1 d1) (w1 : Mat d1 d2) (b1 : Mat 1 d2) (w2 : Mat d2 d3)
    (b2 : Mat 1 d3) : Mat n d3 :=
  affine (act (affine (act (affine h w0 b0)) w1 b1)) w2 b2

/-- The whole network: two layers, each a product followed by the layer's message passing, then the head. -/
def net (G : Mat n d → Mat e d) (S : Mat e d → Mat n d) (nc : Mat e 1) (dc : Mat n 1) (x : Mat n din)
    (cW0 : Mat din d) (cb0 : Mat 1 d) (cW1 : Mat d d) (cb1 : Mat 1 d)
    (fW0 : Mat d d1) (fb0 : Mat 1 d1) (fW1 : Mat d1 d2) (fb1 : Mat 1 d2) (fW2 : Mat d2 d3) (fb2 : Mat 1 d3) : Mat n d3 :=
  head (layer G S nc dc (matProd (layer G S nc dc (matProd x cW0) cb0) cW1) cb1) fW0 fb0 fW1 fb1 fW2 fb2

end Network

end Cert.Gcn

end
-- ==== Proof.Carry.lean ====
/-
  What the program's steps leave alone.

  The contents of the buffers at the boundaries between the program's steps are a fold: a stretch of whole-array
  operations rewrites exactly the buffers its operations write, and a tiled step rewrites exactly its result array
  (its operands are staged and read, never written back). So a buffer holds at a boundary what it held at the last
  boundary before which it was written: an argument its launch contents, a value computed in the first stretch that
  value at every later boundary.
-/
import proofs.«112770_j81913616269326_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The stretch's written buffers. -/
abbrev written0 : List (Ref sig .tc) := [main_v0, main_v1, main_v2, main_v3, main_cst, main_v4, main_c, main_v5, main_v6, main_c_0, main_v7, main_v8, main_v9, main_v10, main_cst_1, main_v11, main_v12, main_cst_2, main_v13, main_v14, main_v15, main_c_3, main_v16, main_v17, main_c_4, main_v18, main_v19, main_v20, main_v21, main_v22, main_c_5, main_v23, main_v24, main_c_6, main_v25, main_v26, main_v27, main_v28, main_v29, main_v30, main_cst_7, main_v31, main_v32, main_v33, main_v34]

/-- A buffer the stretch does not write holds after it what it held before. -/
theorem hostKeep0 (c : Dev nD) (b : Ref sig .tc) (hb : b ∉ written0) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The stretch's written buffers. -/
abbrev written1 : List (Ref sig .tc) := [main_c_8, main_v36, main_v37, main_c_9, main_v38, main_v39, main_v40, main_v41, main_v42]

/-- A buffer the stretch does not write holds after it what it held before. -/
theorem hostKeep1 (c : Dev nD) (b : Ref sig .tc) (hb : b ∉ written1) :
    W3 m ρ c (Proc.devRef .tc b) = W2 m ρ c (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The stretch's written buffers. -/
abbrev written2 : List (Ref sig .tc) := [main_cst_10, main_v44, main_v45, main_v46, main_v47]

/-- A buffer the stretch does not write holds after it what it held before. -/
theorem hostKeep2 (c : Dev nD) (b : Ref sig .tc) (hb : b ∉ written2) :
    W5 m ρ c (Proc.devRef .tc b) = W4 m ρ c (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The stretch's written buffers. -/
abbrev written4 : List (Ref sig .tc) := [main_c_11, main_v50, main_v51, main_c_12, main_v52, main_v53, main_v54, main_v55, main_v56]

/-- A buffer the stretch does not write holds after it what it held before. -/
theorem hostKeep4 (c : Dev nD) (b : Ref sig .tc) (hb : b ∉ written4) :
    W8 m ρ c (Proc.devRef .tc b) = W7 m ρ c (Proc.devRef .tc b) :=
  StableHlo.after_of_forall_not_mem (b := Proc.devRef .tc b) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The stretch's written buffers. -/
abbrev written5 : List (Ref sig .tc) := [main_cst_13, main_v58, main_v59, main_v60, main_v61]

/-- A buffer the stretch does not write holds after it what it held before. -/
theorem hostKeep5 (c : Dev nD) (b : Ref sig .tc) (hb : b ∉ written5) :
    W10 m ρ c (Proc.devRef .tc b) = W9 m ρ c (Proc.devRef .tc b) :=
  StableHlo.after_of_forall_not_mem (b := Proc.devRef .tc b) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The stretch's written buffers. -/
abbrev written6 : List (Ref sig .tc) := [main_v63, main_v64, main_v65]

/-- A buffer the stretch does not write holds after it what it held before. -/
theorem hostKeep6 (c : Dev nD) (b : Ref sig .tc) (hb : b ∉ written6) :
    W12 m ρ c (Proc.devRef .tc b) = W11 m ρ c (Proc.devRef .tc b) :=
  StableHlo.after_of_forall_not_mem (b := Proc.devRef .tc b) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- A buffer other than tiled step 0's result holds after the step what it held before: the step's operands are only read,
    and every other buffer is untouched. -/
theorem stepKeep0 (c : Dev nD) (b : Ref sig .tc) (hb : b ≠ main_v35) :
    W2 m ρ c (Proc.devRef .tc b) = W1 m ρ c (Proc.devRef .tc b) := by
  by_cases h0 : Pipeline.arrRef spec0 0 = b
  · subst h0
    exact (W2_arr m ρ c 0).trans (((dat0 (V1 m ρ) c).arrAt_in 0 rfl _).trans (A_eq0 (V1 m ρ) c 0))
  by_cases h1 : Pipeline.arrRef spec0 1 = b
  · subst h1
    exact (W2_arr m ρ c 1).trans (((dat0 (V1 m ρ) c).arrAt_in 1 rfl _).trans (A_eq0 (V1 m ρ) c 1))
  exact W2_of_ne m ρ c b fun w => by
    match w with
    | ⟨0, _⟩ => exact h0
    | ⟨1, _⟩ => exact h1
    | ⟨2, _⟩ => exact fun e => hb e.symm

/-- A buffer other than tiled step 1's result holds after the step what it held before: the step's operands are only read,
    and every other buffer is untouched. -/
theorem stepKeep1 (c : Dev nD) (b : Ref sig .tc) (hb : b ≠ main_v43) :
    W4 m ρ c (Proc.devRef .tc b) = W3 m ρ c (Proc.devRef .tc b) := by
  by_cases h0 : Pipeline.arrRef spec1 0 = b
  · subst h0
    exact (W4_arr m ρ c 0).trans (((dat1 (V3 m ρ) c).arrAt_in 0 rfl _).trans (A_eq1 (V3 m ρ) c 0))
  by_cases h1 : Pipeline.arrRef spec1 1 = b
  · subst h1
    exact (W4_arr m ρ c 1).trans (((dat1 (V3 m ρ) c).arrAt_in 1 rfl _).trans (A_eq1 (V3 m ρ) c 1))
  exact W4_of_ne m ρ c b fun w => by
    match w with
    | ⟨0, _⟩ => exact h0
    | ⟨1, _⟩ => exact h1
    | ⟨2, _⟩ => exact fun e => hb e.symm

/-- A buffer other than tiled step 2's result holds after the step what it held before: the step's operands are only read,
    and every other buffer is untouched. -/
theorem stepKeep2 (c : Dev nD) (b : Ref sig .tc) (hb : b ≠ main_v48) :
    W6 m ρ c (Proc.devRef .tc b) = W5 m ρ c (Proc.devRef .tc b) := by
  by_cases h0 : Pipeline.arrRef spec2 0 = b
  · subst h0
    exact (W6_arr m ρ c 0).trans (((dat2 (V5 m ρ) c).arrAt_in 0 rfl _).trans (A_eq2 (V5 m ρ) c 0))
  by_cases h1 : Pipeline.arrRef spec2 1 = b
  · subst h1
    exact (W6_arr m ρ c 1).trans (((dat2 (V5 m ρ) c).arrAt_in 1 rfl _).trans (A_eq2 (V5 m ρ) c 1))
  by_cases h2 : Pipeline.arrRef spec2 2 = b
  · subst h2
    exact (W6_arr m ρ c 2).trans (((dat2 (V5 m ρ) c).arrAt_in 2 rfl _).trans (A_eq2 (V5 m ρ) c 2))
  by_cases h3 : Pipeline.arrRef spec2 3 = b
  · subst h3
    exact (W6_arr m ρ c 3).trans (((dat2 (V5 m ρ) c).arrAt_in 3 rfl _).trans (A_eq2 (V5 m ρ) c 3))
  exact W6_of_ne m ρ c b fun w => by
    match w with
    | ⟨0, _⟩ => exact h0
    | ⟨1, _⟩ => exact h1
    | ⟨2, _⟩ => exact h2
    | ⟨3, _⟩ => exact h3
    | ⟨4, _⟩ => exact fun e => hb e.symm

/-- A buffer other than tiled step 3's result holds after the step what it held before: the step's operands are only read,
    and every other buffer is untouched. -/
theorem stepKeep3 (c : Dev nD) (b : Ref sig .tc) (hb : b ≠ main_v49) :
    W7 m ρ c (Proc.devRef .tc b) = W6 m ρ c (Proc.devRef .tc b) := by
  by_cases h0 : Pipeline.arrRef spec3 0 = b
  · subst h0
    exact (W7_arr m ρ c 0).trans (((dat3 (V6 m ρ) c).arrAt_in 0 rfl _).trans (A_eq3 (V6 m ρ) c 0))
  by_cases h1 : Pipeline.arrRef spec3 1 = b
  · subst h1
    exact (W7_arr m ρ c 1).trans (((dat3 (V6 m ρ) c).arrAt_in 1 rfl _).trans (A_eq3 (V6 m ρ) c 1))
  exact W7_of_ne m ρ c b fun w => by
    match w with
    | ⟨0, _⟩ => exact h0
    | ⟨1, _⟩ => exact h1
    | ⟨2, _⟩ => exact fun e => hb e.symm

/-- A buffer other than tiled step 4's result holds after the step what it held before: the step's operands are only read,
    and every other buffer is untouched. -/
theorem stepKeep4 (c : Dev nD) (b : Ref sig .tc) (hb : b ≠ main_v57) :
    W9 m ρ c (Proc.devRef .tc b) = W8 m ρ c (Proc.devRef .tc b) := by
  by_cases h0 : Pipeline.arrRef spec4 0 = b
  · subst h0
    exact (W9_arr m ρ c 0).trans (((dat4 (V8 m ρ) c).arrAt_in 0 rfl _).trans (A_eq4 (V8 m ρ) c 0))
  by_cases h1 : Pipeline.arrRef spec4 1 = b
  · subst h1
    exact (W9_arr m ρ c 1).trans (((dat4 (V8 m ρ) c).arrAt_in 1 rfl _).trans (A_eq4 (V8 m ρ) c 1))
  exact W9_of_ne m ρ c b fun w => by
    match w with
    | ⟨0, _⟩ => exact h0
    | ⟨1, _⟩ => exact h1
    | ⟨2, _⟩ => exact fun e => hb e.symm

/-- A buffer other than tiled step 5's result holds after the step what it held before: the step's operands are only read,
    and every other buffer is untouched. -/
theorem stepKeep5 (c : Dev nD) (b : Ref sig .tc) (hb : b ≠ main_v62) :
    W11 m ρ c (Proc.devRef .tc b) = W10 m ρ c (Proc.devRef .tc b) := by
  by_cases h0 : Pipeline.arrRef spec5 0 = b
  · subst h0
    exact (W11_arr m ρ c 0).trans (((dat5 (V10 m ρ) c).arrAt_in 0 rfl _).trans (A_eq5 (V10 m ρ) c 0))
  by_cases h1 : Pipeline.arrRef spec5 1 = b
  · subst h1
    exact (W11_arr m ρ c 1).trans (((dat5 (V10 m ρ) c).arrAt_in 1 rfl _).trans (A_eq5 (V10 m ρ) c 1))
  by_cases h2 : Pipeline.arrRef spec5 2 = b
  · subst h2
    exact (W11_arr m ρ c 2).trans (((dat5 (V10 m ρ) c).arrAt_in 2 rfl _).trans (A_eq5 (V10 m ρ) c 2))
  by_cases h3 : Pipeline.arrRef spec5 3 = b
  · subst h3
    exact (W11_arr m ρ c 3).trans (((dat5 (V10 m ρ) c).arrAt_in 3 rfl _).trans (A_eq5 (V10 m ρ) c 3))
  exact W11_of_ne m ρ c b fun w => by
    match w with
    | ⟨0, _⟩ => exact h0
    | ⟨1, _⟩ => exact h1
    | ⟨2, _⟩ => exact h2
    | ⟨3, _⟩ => exact h3
    | ⟨4, _⟩ => exact fun e => hb e.symm

/-- Written by nothing after the first stretch: not a later stretch's buffer, not a tiled step's result. -/
abbrev settled (b : Ref sig .tc) : Prop :=
  b ≠ main_v35 ∧ b ≠ main_v43 ∧ b ≠ main_v48 ∧ b ≠ main_v49 ∧ b ≠ main_v57 ∧ b ≠ main_v62
    ∧ b ∉ written1 ∧ b ∉ written2 ∧ b ∉ written4 ∧ b ∉ written5 ∧ b ∉ written6

variable {b : Ref sig .tc}

theorem at2 (c : Dev nD) (h : settled b) : W2 m ρ c (Proc.devRef .tc b) = W1 m ρ c (Proc.devRef .tc b) :=
  stepKeep0 m ρ c b h.1
theorem at3 (c : Dev nD) (h : settled b) : W3 m ρ c (Proc.devRef .tc b) = W1 m ρ c (Proc.devRef .tc b) :=
  (hostKeep1 m ρ c b h.2.2.2.2.2.2.1).trans (at2 m ρ c h)
theorem at4 (c : Dev nD) (h : settled b) : W4 m ρ c (Proc.devRef .tc b) = W1 m ρ c (Proc.devRef .tc b) :=
  (stepKeep1 m ρ c b h.2.1).trans (at3 m ρ c h)
theorem at5 (c : Dev nD) (h : settled b) : W5 m ρ c (Proc.devRef .tc b) = W1 m ρ c (Proc.devRef .tc b) :=
  (hostKeep2 m ρ c b h.2.2.2.2.2.2.2.1).trans (at4 m ρ c h)
theorem at6 (c : Dev nD) (h : settled b) : W6 m ρ c (Proc.devRef .tc b) = W1 m ρ c (Proc.devRef .tc b) :=
  (stepKeep2 m ρ c b h.2.2.1).trans (at5 m ρ c h)
theorem at7 (c : Dev nD) (h : settled b) : W7 m ρ c (Proc.devRef .tc b) = W1 m ρ c (Proc.devRef .tc b) :=
  (stepKeep3 m ρ c b h.2.2.2.1).trans (at6 m ρ c h)
theorem at8 (c : Dev nD) (h : settled b) : W8 m ρ c (Proc.devRef .tc b) = W1 m ρ c (Proc.devRef .tc b) :=
  (hostKeep4 m ρ c b h.2.2.2.2.2.2.2.2.1).trans (at7 m ρ c h)
theorem at9 (c : Dev nD) (h : settled b) : W9 m ρ c (Proc.devRef .tc b) = W1 m ρ c (Proc.devRef .tc b) :=
  (stepKeep4 m ρ c b h.2.2.2.2.1).trans (at8 m ρ c h)
theorem at10 (c : Dev nD) (h : settled b) : W10 m ρ c (Proc.devRef .tc b) = W1 m ρ c (Proc.devRef .tc b) :=
  (hostKeep5 m ρ c b h.2.2.2.2.2.2.2.2.2.1).trans (at9 m ρ c h)
theorem at11 (c : Dev nD) (h : settled b) : W11 m ρ c (Proc.devRef .tc b) = W1 m ρ c (Proc.devRef .tc b) :=
  (stepKeep5 m ρ c b h.2.2.2.2.2.1).trans (at10 m ρ c h)
theorem at12 (c : Dev nD) (h : settled b) : W12 m ρ c (Proc.devRef .tc b) = W1 m ρ c (Proc.devRef .tc b) :=
  (hostKeep6 m ρ c b h.2.2.2.2.2.2.2.2.2.2).trans (at11 m ρ c h)

/-- A buffer the first stretch does not write holds after it its launch contents. -/
theorem launch1 (c : Dev nD) (h0 : b ∉ written0) :
    W1 m ρ c (Proc.devRef .tc b) = m ((c : Thread nD τ).loc b) :=
  (hostKeep0 m ρ c b h0).trans rfl

end Cert.KernelIdeal.Carry

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.TransformOne.lean ====
/-
  The feature transform of layer one, read as a function of whole arrays.

  The step runs over 20 tiles of 5000 nodes. Tile t holds rows 5000·t … 5000·t + 4999 of the node features
  (all 128 columns) and the whole 128 × 64 weight matrix, and writes those rows of the product: entry (p, q) of the
  tile's result is the sum over k of feature (p, k) · weight (k, q) — the narrowing of both operands before the
  product is the identity on extended reals, and the product starts from zero. The tiles' rows partition the
  100000 nodes, so the result array is the matrix product of the whole arrays.
-/
import proofs.«112770_j81913616269326_1_alg».proof.Proof.Gen.KernelIdeal.Frame
import proofs.«112770_j81913616269326_1_alg».proof.Proof.Spec
import proofs.«112770_j81913616269326_1_alg».proof.Proof.LibPlainDot
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

open scoped BigOperators

namespace Cert.KernelIdeal.TransformOne

open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- A tile's result at (p, q): the sum over k of feature (p, k) · weight (k, q). -/
theorem tile_apply (x0 : Vec Ideal S5000x128 .f32) (x1 : Vec Ideal S128x64 .f32) (p : Fin 5000) (q : Fin 64) :
    k0_pay1 x0 x1 (ix2 p q) = ∑ k : Fin 128, x0 (ix2 p k) * x1 (ix2 k q) := by
  unfold k0_pay1
  exact Cert.Lib.PlainDot.matmul_zero_apply dot_S5000x128_S128x64_S5000x64_1_0_0_1_n_n.wf none
    (truncf .bf16 x0 bitsLt_bf16_f32) (truncf .bf16 x1 bitsLt_bf16_f32) p q

/-- A tile whose rows are read from the whole feature array at the result's rows, against the whole weight matrix,
    computes those rows of the product. -/
theorem tile_rows (A0 : Cert.Gcn.Mat 100000 128) (A1 : Cert.Gcn.Mat 128 64)
    (e0 : S5000x128.Idx → S100000x128.Idx) (e1 : S128x64.Idx → S128x64.Idx) (eo : S5000x64.Idx → S100000x64.Idx)
    (h0 : ∀ (p : Fin 5000) (k : Fin 128) (q : Fin 64), e0 (ix2 p k) = ix2 (eo (ix2 p q) 0) k)
    (h1 : ∀ (p : Fin 5000) (k : Fin 128) (q : Fin 64), e1 (ix2 k q) = ix2 k (eo (ix2 p q) 1))
    (y : S5000x64.Idx) :
    k0_pay1 (fun y => A0 (e0 y)) (fun y => A1 (e1 y)) y = Cert.Gcn.matProd A0 A1 (eo y) := by
  obtain ⟨p, q, rfl⟩ : ∃ (p : Fin 5000) (q : Fin 64), y = ix2 p q := ⟨y 0, y 1, eq_ix2 y⟩
  rw [tile_apply]
  unfold Cert.Gcn.matProd
  refine Finset.sum_congr rfl fun k _ => ?_
  rw [h0 p k q, h1 p k q]
  rfl

/-- Tile t sits at block row t of the features and of the result; the weight matrix is one block. -/
theorem tile_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What tile t writes back is its block of the product of the whole arrays. -/
theorem flushed_eq (c : Dev nD) (t : Fin cfg0.N) :
    (dat0 V c).flushed 2 t
      = ((cfg0.win 2).blk t).view.read (Elt Ideal) (Cert.Gcn.matProd (V c main_arg0) (V c main_arg2)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x64) zeroOffsets]
  obtain ⟨e0, e1, e2, e3, e4, e5⟩ := tile_index t
  funext j
  show k0_pay1 (fun y => V c main_arg0 (((cfg0.win 0).blk t).view.emb y)) (fun y => V c main_arg2 (((cfg0.win 1).blk t).view.emb y)) j
    = Cert.Gcn.matProd (V c main_arg0) (V c main_arg2) (((cfg0.win 2).blk t).view.emb j)
  refine tile_rows (V c main_arg0) (V c main_arg2) (fun y => ((cfg0.win 0).blk t).view.emb y) (fun y => ((cfg0.win 1).blk t).view.emb y)
    (fun y => ((cfg0.win 2).blk t).view.emb y) (fun p k q => ?_) (fun p k q => ?_) j
  · funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega

/-- An index of the result array is in tile t's block iff each coordinate is in the block's range. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole (Pipeline.arrRef spec0 2)).slice (win0_2.rect t)).set ↔ _
  rw [View.set_slice_whole, Rect.mem_set_unit]
  exact Iff.rfl

/-- Every node row lies in some tile: row n in tile n / 5000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_2 _, ?_⟩
  rw [mem_blk]
  obtain ⟨e0, e1, e2, e3, e4, e5⟩ := tile_index ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 64 ≤ (i 1).val ∧ (i 1).val < win0_2.index _ (1 : Fin 2) * 64 + 64
    rw [e5]; omega

/-- The result array after the step: the matrix product of the whole arrays. -/
theorem value (c : Dev nD) :
    (dat0 V c).arrAt 2 cfg0.N = Cert.Gcn.matProd (V c main_arg0) (V c main_arg2) :=
  (dat0 V c).arrAt_eq_of_cover 2 _ (fun t _ => flushed_eq V c t) covered

end Cert.KernelIdeal.TransformOne

end
-- ==== Proof.LibColBroadcast.lean ====
/-
  A column broadcast across the columns, read at an index.

  An `a × 1` column broadcast (as a vector broadcast) to `a × b` reads, at `(p, q)`, the column at `p`: the row
  coordinate is kept (the operand's axis 0 has the result's extent), the column coordinate is dropped (the operand's axis 1
  is a unit axis). For any element type and any extents; the companion of the row forms.
-/
import Idealize.ShloMosaic.Lib.Pipeline.Value
import Idealize.ShloMosaic.Lib.ValueIdx

noncomputable section

namespace Cert.Lib.Cols

open Idealize.ShloMosaic Idealize.ShloMosaic.ValueIdx

variable {a b : Nat}

/-- An `a × 1` column broadcast across `b` columns reads, at `(p, q)`, the column at `p`. -/
theorem bcastCol_apply {α : Type} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else q.val
    rw [if_pos rfl]

/-- A length-`a` vector reshaped to an `a × 1` column reads, at `(p, 0)`, the vector at `p`. -/
theorem col_apply {α : Type} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_two, Shape.rowMajor_val_one]
    show p.val = p.val * 1 + 0
    omega)

/-- A length-`a` vector broadcast along dimension 0 to an `a × 1` column reads, at `(p, 0)`, the vector at `p`. -/
theorem dimVec_apply {α : Type} (v : (⟨1, ![a]⟩ : Shape).Idx → α)
    (h : (⟨1, ![a]⟩ : Shape).BroadcastsInDim ⟨2, ![a, 1]⟩ ![0]) (p : Fin a) :
    broadcastInDim ⟨2, ![a, 1]⟩ ![0] h v (ix2 p (0 : Fin 1)) = v (ix1 p) :=
  broadcastInDim_apply _ h v (ix2 p (0 : Fin 1)) (ix1 p) fun ax => by
    match ax with
    | ⟨0, _⟩ =>
      show p.val = if a = 1 then 0 else p.val
      split
      · have := p.isLt; omega
      · rfl

end Cert.Lib.Cols

end
-- ==== Proof.ScaleOne.lean ====
/-
  The edge-scaling step of layer one, read as a function of whole arrays.

  The step runs over 160 tiles of 10000 edges. Tile t holds rows 10000·t … 10000·t + 9999 of the gathered
  features (all 64 columns) and the same rows of the coefficient column, and writes those rows of the result:
  entry (p, q) of the tile's result is the feature at (p, q) times the coefficient at (p, 0). The tiles' rows
  partition the 1600000 edges, so the result array is, entry by entry, the gathered features with each row
  scaled by its coefficient.
-/
import proofs.«112770_j81913616269326_1_alg».proof.Proof.Gen.KernelIdeal.Frame
import proofs.«112770_j81913616269326_1_alg».proof.Proof.Spec
import proofs.«112770_j81913616269326_1_alg».proof.Proof.LibColBroadcast
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ScaleOne

open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- A tile's result at (p, q): the feature at (p, q) times the coefficient at (p, 0). -/
theorem tile_apply (x0 : Vec Ideal S10000x64 .f32) (x1 : Vec Ideal S10000x1 .f32) (p : Fin 10000) (q : Fin 64) :
    k1_pay1 x0 x1 (ix2 p q) = x0 (ix2 p q) * x1 (ix2 p (0 : Fin 1)) := by
  simp only [k1_pay1, mulf_apply, shapeCast_self, Cert.Lib.Cols.bcastCol_apply]

/-- A tile whose rows are read from whole arrays at matching rows computes those rows of the scaled array. -/
theorem tile_rows (A0 : Cert.Gcn.Mat 1600000 64) (A1 : Cert.Gcn.Mat 1600000 1)
    (e0 : S10000x64.Idx → S1600000x64.Idx) (e1 : S10000x1.Idx → S1600000x1.Idx)
    (h : ∀ (p : Fin 10000) (q : Fin 64), e1 (ix2 p (0 : Fin 1)) = ix2 (e0 (ix2 p q) 0) (0 : Fin 1))
    (y : S10000x64.Idx) :
    k1_pay1 (fun y => A0 (e0 y)) (fun y => A1 (e1 y)) y = Cert.Gcn.scaleRows A0 A1 (e0 y) := by
  obtain ⟨p, q, rfl⟩ : ∃ (p : Fin 10000) (q : Fin 64), y = ix2 p q := ⟨y 0, y 1, eq_ix2 y⟩
  rw [tile_apply]
  unfold Cert.Gcn.scaleRows
  rw [h p q]
  rfl

/-- Tile t sits at block row t of each of its three arrays, block column 0. -/
theorem tile_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What tile t writes back is its block of the scaled array. -/
theorem flushed_eq (c : Dev nD) (t : Fin cfg1.N) :
    (dat1 V c).flushed 2 t
      = ((cfg1.win 2).blk t).view.read (Elt Ideal) (Cert.Gcn.scaleRows (V c main_v42) (V c main_v34)) := by
  show (cfg1.win 2).cut (grid1.coords t) ((dat1 V c).after 2 t) = _
  rw [after1_2]
  unfold out1_2
  rw [View.canon_unit_zero zeroOffsets]
  simp only [View.ld_unit_zero (S := S10000x64) zeroOffsets, View.ld_unit_zero (S := S10000x1) zeroOffsets]
  obtain ⟨e0, e1, e2, e3, e4, e5⟩ := tile_index t
  funext j
  show k1_pay1 (fun y => V c main_v42 (((cfg1.win 0).blk t).view.emb y)) (fun y => V c main_v34 (((cfg1.win 1).blk t).view.emb y)) j
    = Cert.Gcn.scaleRows (V c main_v42) (V c main_v34) (((cfg1.win 2).blk t).view.emb j)
  have h2 : ((cfg1.win 2).blk t).view.emb j = ((cfg1.win 0).blk t).view.emb j := by
    funext a; apply Fin.ext
    match a with
    | ⟨0, _⟩ => show win1_2.index t (0 : Fin 2) * 10000 + 1 * (j 0).val = win1_0.index t (0 : Fin 2) * 10000 + 1 * (j 0).val; omega
    | ⟨1, _⟩ => show win1_2.index t (1 : Fin 2) * 64 + 1 * (j 1).val = win1_0.index t (1 : Fin 2) * 64 + 1 * (j 1).val; omega
  rw [h2]
  refine tile_rows (V c main_v42) (V c main_v34) (fun y => ((cfg1.win 0).blk t).view.emb y) (fun y => ((cfg1.win 1).blk t).view.emb y) (fun p q => ?_) j
  funext a; apply Fin.ext
  match a with
  | ⟨0, _⟩ => show win1_1.index t (0 : Fin 2) * 10000 + 1 * p.val = win1_0.index t (0 : Fin 2) * 10000 + 1 * p.val; omega
  | ⟨1, _⟩ => show win1_1.index t (1 : Fin 2) * 1 + 1 * 0 = 0; omega

/-- An index of the result array is in tile t's block iff each coordinate is in the block's range. -/
theorem mem_blk (t : Fin cfg1.N) (i : S1600000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole (Pipeline.arrRef spec1 2)).slice (win1_2.rect t)).set ↔ _
  rw [View.set_slice_whole, Rect.mem_set_unit]
  exact Iff.rfl

/-- Every edge row lies in some tile: row n in tile n / 10000. -/
theorem covered (i : S1600000x64.Idx) :
    ∃ t : Fin cfg1.N, (cfg1.win 2).flush t = true ∧ i ∈ ((cfg1.win 2).blk t).view.set := by
  have hi0 : (i 0).val < 1600000 := (i 0).isLt
  have hi1 : (i 1).val < 64 := (i 1).isLt
  have hN : cfg1.N = 160 := N_1
  refine ⟨⟨(i 0).val / 10000, by rw [hN]; omega⟩, flush1_2 _, ?_⟩
  rw [mem_blk]
  obtain ⟨e0, e1, e2, e3, e4, e5⟩ := tile_index ⟨(i 0).val / 10000, by rw [hN]; omega⟩
  intro a
  match a with
  | ⟨0, _⟩ =>
    show win1_2.index _ (0 : Fin 2) * 10000 ≤ (i 0).val ∧ (i 0).val < win1_2.index _ (0 : Fin 2) * 10000 + 10000
    rw [e4]; show (i 0).val / 10000 * 10000 ≤ (i 0).val ∧ (i 0).val < (i 0).val / 10000 * 10000 + 10000; omega
  | ⟨1, _⟩ =>
    show win1_2.index _ (1 : Fin 2) * 64 ≤ (i 1).val ∧ (i 1).val < win1_2.index _ (1 : Fin 2) * 64 + 64
    rw [e5]; omega

/-- The result array after the step: the gathered features, each row scaled by its coefficient. -/
theorem value (c : Dev nD) :
    (dat1 V c).arrAt 2 cfg1.N = Cert.Gcn.scaleRows (V c main_v42) (V c main_v34) :=
  (dat1 V c).arrAt_eq_of_cover 2 _ (fun t _ => flushed_eq V c t) covered

end Cert.KernelIdeal.ScaleOne

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.CombineOne.lean ====
/-
  The closing step of layer one, read as a function of whole arrays.

  The step runs over 20 tiles of 5000 nodes. Tile t holds rows 5000·t … 5000·t + 4999 of the aggregated
  messages, of the layer's features and of the inverse-degree column, and the whole bias row, and writes those rows
  of the result: entry (p, q) is tanh (aggregate (p, q) + feature (p, q) · inverse degree (p, 0) + bias (0, q)).
  The tiles' rows partition the 100000 nodes, so the result array is that expression of the whole arrays.
-/
import proofs.«112770_j81913616269326_1_alg».proof.Proof.Gen.KernelIdeal.Frame
import proofs.«112770_j81913616269326_1_alg».proof.Proof.Spec
import proofs.«112770_j81913616269326_1_alg».proof.Proof.LibColBroadcast
import proofs.«112770_j81913616269326_1_alg».proof.Proof.LibRowBroadcasts
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.CombineOne

open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- tanh of a vector, read at an index. -/
theorem tanh_at {s : Shape} {φ : FTy} (x : FVec Ideal s φ) (i : s.Idx) :
    Idealize.ShloMosaic.tanh x i = Ideal.tanh (x i) := rfl

/-- A tile's result at (p, q). -/
theorem tile_apply (x0 x1 : Vec Ideal S5000x64 .f32) (x2 : Vec Ideal S5000x1 .f32) (x3 : Vec Ideal S1x64 .f32)
    (p : Fin 5000) (q : Fin 64) :
    k2_pay1 x0 x1 x2 x3 (ix2 p q)
      = Ideal.tanh ((x0 (ix2 p q) + x1 (ix2 p q) * x2 (ix2 p (0 : Fin 1))) + x3 (ix2 (0 : Fin 1) q)) := by
  simp only [k2_pay1, tanh_at, addf_apply, mulf_apply, shapeCast_self, Cert.Lib.Cols.bcastCol_apply,
    Cert.Lib.Rows.bcastRow_apply]

/-- A tile whose rows are read from whole arrays at matching rows computes those rows of the closing step. -/
theorem tile_rows (A0 A1 : Cert.Gcn.Mat 100000 64) (A2 : Cert.Gcn.Mat 100000 1) (A3 : Cert.Gcn.Mat 1 64)
    (e0 e1 : S5000x64.Idx → S100000x64.Idx) (e2 : S5000x1.Idx → S100000x1.Idx) (e3 : S1x64.Idx → S1x64.Idx)
    (h1 : ∀ y, e1 y = e0 y)
    (h2 : ∀ (p : Fin 5000) (q : Fin 64), e2 (ix2 p (0 : Fin 1)) = ix2 (e0 (ix2 p q) 0) (0 : Fin 1))
    (h3 : ∀ (p : Fin 5000) (q : Fin 64), e3 (ix2 (0 : Fin 1) q) = ix2 (0 : Fin 1) (e0 (ix2 p q) 1))
    (y : S5000x64.Idx) :
    k2_pay1 (fun y => A0 (e0 y)) (fun y => A1 (e1 y)) (fun y => A2 (e2 y)) (fun y => A3 (e3 y)) y
      = Cert.Gcn.combine A0 A1 A2 A3 (e0 y) := by
  obtain ⟨p, q, rfl⟩ : ∃ (p : Fin 5000) (q : Fin 64), y = ix2 p q := ⟨y 0, y 1, eq_ix2 y⟩
  rw [tile_apply]
  unfold Cert.Gcn.combine
  rw [h1, h2 p q, h3 p q]
  rfl

/-- Tile t sits at block row t of the four row-tiled arrays; the bias row is one block. -/
theorem tile_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What tile t writes back is its block of the closing step of the whole arrays. -/
theorem flushed_eq (c : Dev nD) (t : Fin cfg2.N) :
    (dat2 V c).flushed 4 t
      = ((cfg2.win 4).blk t).view.read (Elt Ideal)
          (Cert.Gcn.combine (V c main_v46) (V c main_v35) (V c main_v33) (V c main_v47)) := by
  show (cfg2.win 4).cut (grid2.coords t) ((dat2 V c).after 4 t) = _
  rw [after2_4]
  unfold out2_4
  rw [View.canon_unit_zero zeroOffsets]
  simp only [View.ld_unit_zero (S := S5000x64) zeroOffsets, View.ld_unit_zero (S := S5000x1) zeroOffsets,
    View.ld_unit_zero (S := S1x64) zeroOffsets]
  obtain ⟨e0, e1, e2, e3, e4, e5, e6, e7, e8, e9⟩ := tile_index t
  funext j
  show k2_pay1 (fun y => V c main_v46 (((cfg2.win 0).blk t).view.emb y)) (fun y => V c main_v35 (((cfg2.win 1).blk t).view.emb y))
      (fun y => V c main_v33 (((cfg2.win 2).blk t).view.emb y)) (fun y => V c main_v47 (((cfg2.win 3).blk t).view.emb y)) j
    = Cert.Gcn.combine (V c main_v46) (V c main_v35) (V c main_v33) (V c main_v47) (((cfg2.win 4).blk t).view.emb j)
  have h4 : ((cfg2.win 4).blk t).view.emb j = ((cfg2.win 0).blk t).view.emb j := by
    funext a; apply Fin.ext
    match a with
    | ⟨0, _⟩ => show win2_4.index t (0 : Fin 2) * 5000 + 1 * (j 0).val = win2_0.index t (0 : Fin 2) * 5000 + 1 * (j 0).val; omega
    | ⟨1, _⟩ => show win2_4.index t (1 : Fin 2) * 64 + 1 * (j 1).val = win2_0.index t (1 : Fin 2) * 64 + 1 * (j 1).val; omega
  rw [h4]
  refine tile_rows (V c main_v46) (V c main_v35) (V c main_v33) (V c main_v47) (fun y => ((cfg2.win 0).blk t).view.emb y)
    (fun y => ((cfg2.win 1).blk t).view.emb y) (fun y => ((cfg2.win 2).blk t).view.emb y)
    (fun y => ((cfg2.win 3).blk t).view.emb y) (fun y => ?_) (fun p q => ?_) (fun p q => ?_) j
  · funext a; apply Fin.ext
    match a with
    | ⟨0, _⟩ => show win2_1.index t (0 : Fin 2) * 5000 + 1 * (y 0).val = win2_0.index t (0 : Fin 2) * 5000 + 1 * (y 0).val; omega
    | ⟨1, _⟩ => show win2_1.index t (1 : Fin 2) * 64 + 1 * (y 1).val = win2_0.index t (1 : Fin 2) * 64 + 1 * (y 1).val; omega
  · funext a; apply Fin.ext
    match a with
    | ⟨0, _⟩ => show win2_2.index t (0 : Fin 2) * 5000 + 1 * p.val = win2_0.index t (0 : Fin 2) * 5000 + 1 * p.val; omega
    | ⟨1, _⟩ => show win2_2.index t (1 : Fin 2) * 1 + 1 * 0 = 0; omega
  · funext a; apply Fin.ext
    match a with
    | ⟨0, _⟩ => show win2_3.index t (0 : Fin 2) * 1 + 1 * 0 = 0; omega
    | ⟨1, _⟩ => show win2_3.index t (1 : Fin 2) * 64 + 1 * q.val = win2_0.index t (1 : Fin 2) * 64 + 1 * q.val; omega

/-- An index of the result array is in tile t's block iff each coordinate is in the block's range. -/
theorem mem_blk (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole (Pipeline.arrRef spec2 4)).slice (win2_4.rect t)).set ↔ _
  rw [View.set_slice_whole, Rect.mem_set_unit]
  exact Iff.rfl

/-- Every node row lies in some tile: row n in tile n / 5000. -/
theorem covered (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_4 _, ?_⟩
  rw [mem_blk]
  obtain ⟨e0, e1, e2, e3, e4, e5, e6, e7, e8, e9⟩ := tile_index ⟨(i 0).val / 5000, by rw [hN]; omega⟩
  intro a
  match a with
  | ⟨0, _⟩ =>
    show win2_4.index _ (0 : Fin 2) * 5000 ≤ (i 0).val ∧ (i 0).val < win2_4.index _ (0 : Fin 2) * 5000 + 5000
    rw [e8]; show (i 0).val / 5000 * 5000 ≤ (i 0).val ∧ (i 0).val < (i 0).val / 5000 * 5000 + 5000; omega
  | ⟨1, _⟩ =>
    show win2_4.index _ (1 : Fin 2) * 64 ≤ (i 1).val ∧ (i 1).val < win2_4.index _ (1 : Fin 2) * 64 + 64
    rw [e9]; omega

/-- The result array after the step. -/
theorem value (c : Dev nD) :
    (dat2 V c).arrAt 4 cfg2.N = Cert.Gcn.combine (V c main_v46) (V c main_v35) (V c main_v33) (V c main_v47) :=
  (dat2 V c).arrAt_eq_of_cover 4 _ (fun t _ => flushed_eq V c t) covered

end Cert.KernelIdeal.CombineOne

end
-- ==== Proof.TransformTwo.lean ====
/-
  The feature transform of layer two, read as a function of whole arrays.

  The step runs over 20 tiles of 5000 nodes. Tile t holds rows 5000·t … 5000·t + 4999 of the node features
  (all 64 columns) and the whole 64 × 64 weight matrix, and writes those rows of the product: entry (p, q) of the
  tile's result is the sum over k of feature (p, k) · weight (k, q) — the narrowing of both operands before the
  product is the identity on extended reals, and the product starts from zero. The tiles' rows partition the
  100000 nodes, so the result array is the matrix product of the whole arrays.
-/
import proofs.«112770_j81913616269326_1_alg».proof.Proof.Gen.KernelIdeal.Frame
import proofs.«112770_j81913616269326_1_alg».proof.Proof.Spec
import proofs.«112770_j81913616269326_1_alg».proof.Proof.LibPlainDot
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

open scoped BigOperators

namespace Cert.KernelIdeal.TransformTwo

open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- A tile's result at (p, q): the sum over k of feature (p, k) · weight (k, q). -/
theorem tile_apply (x0 : Vec Ideal S5000x64 .f32) (x1 : Vec Ideal S64x64 .f32) (p : Fin 5000) (q : Fin 64) :
    k3_pay1 x0 x1 (ix2 p q) = ∑ k : Fin 64, x0 (ix2 p k) * x1 (ix2 k q) := by
  simp only [k3_pay1, shapeCast_self]
  exact Cert.Lib.PlainDot.matmul_zero_apply dot_S5000x64_S64x64_S5000x64_1_0_0_1_n_n.wf none
    (truncf .bf16 x0 bitsLt_bf16_f32) (truncf .bf16 x1 bitsLt_bf16_f32) p q

/-- A tile whose rows are read from the whole feature array at the result's rows, against the whole weight matrix,
    computes those rows of the product. -/
theorem tile_rows (A0 : Cert.Gcn.Mat 100000 64) (A1 : Cert.Gcn.Mat 64 64)
    (e0 : S5000x64.Idx → S100000x64.Idx) (e1 : S64x64.Idx → S64x64.Idx) (eo : S5000x64.Idx → S100000x64.Idx)
    (h0 : ∀ (p : Fin 5000) (k : Fin 64) (q : Fin 64), e0 (ix2 p k) = ix2 (eo (ix2 p q) 0) k)
    (h1 : ∀ (p : Fin 5000) (k : Fin 64) (q : Fin 64), e1 (ix2 k q) = ix2 k (eo (ix2 p q) 1))
    (y : S5000x64.Idx) :
    k3_pay1 (fun y => A0 (e0 y)) (fun y => A1 (e1 y)) y = Cert.Gcn.matProd A0 A1 (eo y) := by
  obtain ⟨p, q, rfl⟩ : ∃ (p : Fin 5000) (q : Fin 64), y = ix2 p q := ⟨y 0, y 1, eq_ix2 y⟩
  rw [tile_apply]
  unfold Cert.Gcn.matProd
  refine Finset.sum_congr rfl fun k _ => ?_
  rw [h0 p k q, h1 p k q]
  rfl

/-- Tile t sits at block row t of the features and of the result; the weight matrix is one block. -/
theorem tile_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What tile t writes back is its block of the product of the whole arrays. -/
theorem flushed_eq (c : Dev nD) (t : Fin cfg3.N) :
    (dat3 V c).flushed 2 t
      = ((cfg3.win 2).blk t).view.read (Elt Ideal) (Cert.Gcn.matProd (V c main_v48) (V c main_arg4)) := by
  show (cfg3.win 2).cut (grid3.coords t) ((dat3 V c).after 2 t) = _
  rw [after3_2]
  unfold out3_2
  rw [View.canon_unit_zero zeroOffsets]
  simp only [View.ld_unit_zero (S := S5000x64) zeroOffsets, View.ld_unit_zero (S := S64x64) zeroOffsets]
  obtain ⟨e0, e1, e2, e3, e4, e5⟩ := tile_index t
  funext j
  show k3_pay1 (fun y => V c main_v48 (((cfg3.win 0).blk t).view.emb y)) (fun y => V c main_arg4 (((cfg3.win 1).blk t).view.emb y)) j
    = Cert.Gcn.matProd (V c main_v48) (V c main_arg4) (((cfg3.win 2).blk t).view.emb j)
  refine tile_rows (V c main_v48) (V c main_arg4) (fun y => ((cfg3.win 0).blk t).view.emb y) (fun y => ((cfg3.win 1).blk t).view.emb y)
    (fun y => ((cfg3.win 2).blk t).view.emb y) (fun p k q => ?_) (fun p k q => ?_) j
  · funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * k.val = k.val; omega
  · funext a; apply Fin.ext
    match a with
    | ⟨0, _⟩ => show win3_1.index t (0 : Fin 2) * 64 + 1 * k.val = k.val; omega
    | ⟨1, _⟩ => show win3_1.index t (1 : Fin 2) * 64 + 1 * q.val = win3_2.index t (1 : Fin 2) * 64 + 1 * q.val; omega

/-- An index of the result array is in tile t's block iff each coordinate is in the block's range. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole (Pipeline.arrRef spec3 2)).slice (win3_2.rect t)).set ↔ _
  rw [View.set_slice_whole, Rect.mem_set_unit]
  exact Iff.rfl

/-- Every node row lies in some tile: row n in tile n / 5000. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  refine ⟨⟨(i 0).val / 5000, by rw [hN]; omega⟩, flush3_2 _, ?_⟩
  rw [mem_blk]
  obtain ⟨e0, e1, e2, e3, e4, e5⟩ := tile_index ⟨(i 0).val / 5000, by rw [hN]; omega⟩
  intro a
  match a with
  | ⟨0, _⟩ =>
    show win3_2.index _ (0 : Fin 2) * 5000 ≤ (i 0).val ∧ (i 0).val < win3_2.index _ (0 : Fin 2) * 5000 + 5000
    rw [e4]; show (i 0).val / 5000 * 5000 ≤ (i 0).val ∧ (i 0).val < (i 0).val / 5000 * 5000 + 5000; omega
  | ⟨1, _⟩ =>
    show win3_2.index _ (1 : Fin 2) * 64 ≤ (i 1).val ∧ (i 1).val < win3_2.index _ (1 : Fin 2) * 64 + 64
    rw [e5]; omega

/-- The result array after the step: the matrix product of the whole arrays. -/
theorem value (c : Dev nD) :
    (dat3 V c).arrAt 2 cfg3.N = Cert.Gcn.matProd (V c main_v48) (V c main_arg4) :=
  (dat3 V c).arrAt_eq_of_cover 2 _ (fun t _ => flushed_eq V c t) covered

end Cert.KernelIdeal.TransformTwo

end
-- ==== Proof.ScaleTwo.lean ====
/-
  The edge-scaling step of layer two, read as a function of whole arrays.

  The step runs over 160 tiles of 10000 edges. Tile t holds rows 10000·t … 10000·t + 9999 of the gathered
  features (all 64 columns) and the same rows of the coefficient column, and writes those rows of the result:
  entry (p, q) of the tile's result is the feature at (p, q) times the coefficient at (p, 0). The tiles' rows
  partition the 1600000 edges, so the result array is, entry by entry, the gathered features with each row
  scaled by its coefficient.
-/
import proofs.«112770_j81913616269326_1_alg».proof.Proof.Gen.KernelIdeal.Frame
import proofs.«112770_j81913616269326_1_alg».proof.Proof.Spec
import proofs.«112770_j81913616269326_1_alg».proof.Proof.LibColBroadcast
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ScaleTwo

open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- A tile's result at (p, q): the feature at (p, q) times the coefficient at (p, 0). -/
theorem tile_apply (x0 : Vec Ideal S10000x64 .f32) (x1 : Vec Ideal S10000x1 .f32) (p : Fin 10000) (q : Fin 64) :
    k4_pay1 x0 x1 (ix2 p q) = x0 (ix2 p q) * x1 (ix2 p (0 : Fin 1)) := by
  simp only [k4_pay1, mulf_apply, shapeCast_self, Cert.Lib.Cols.bcastCol_apply]

/-- A tile whose rows are read from whole arrays at matching rows computes those rows of the scaled array. -/
theorem tile_rows (A0 : Cert.Gcn.Mat 1600000 64) (A1 : Cert.Gcn.Mat 1600000 1)
    (e0 : S10000x64.Idx → S1600000x64.Idx) (e1 : S10000x1.Idx → S1600000x1.Idx)
    (h : ∀ (p : Fin 10000) (q : Fin 64), e1 (ix2 p (0 : Fin 1)) = ix2 (e0 (ix2 p q) 0) (0 : Fin 1))
    (y : S10000x64.Idx) :
    k4_pay1 (fun y => A0 (e0 y)) (fun y => A1 (e1 y)) y = Cert.Gcn.scaleRows A0 A1 (e0 y) := by
  obtain ⟨p, q, rfl⟩ : ∃ (p : Fin 10000) (q : Fin 64), y = ix2 p q := ⟨y 0, y 1, eq_ix2 y⟩
  rw [tile_apply]
  unfold Cert.Gcn.scaleRows
  rw [h p q]
  rfl

/-- Tile t sits at block row t of each of its three arrays, block column 0. -/
theorem tile_index : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What tile t writes back is its block of the scaled array. -/
theorem flushed_eq (c : Dev nD) (t : Fin cfg4.N) :
    (dat4 V c).flushed 2 t
      = ((cfg4.win 2).blk t).view.read (Elt Ideal) (Cert.Gcn.scaleRows (V c main_v56) (V c main_v34)) := by
  show (cfg4.win 2).cut (grid4.coords t) ((dat4 V c).after 2 t) = _
  rw [after4_2]
  unfold out4_2
  rw [View.canon_unit_zero zeroOffsets]
  simp only [View.ld_unit_zero (S := S10000x64) zeroOffsets, View.ld_unit_zero (S := S10000x1) zeroOffsets]
  obtain ⟨e0, e1, e2, e3, e4, e5⟩ := tile_index t
  funext j
  show k4_pay1 (fun y => V c main_v56 (((cfg4.win 0).blk t).view.emb y)) (fun y => V c main_v34 (((cfg4.win 1).blk t).view.emb y)) j
    = Cert.Gcn.scaleRows (V c main_v56) (V c main_v34) (((cfg4.win 2).blk t).view.emb j)
  have h2 : ((cfg4.win 2).blk t).view.emb j = ((cfg4.win 0).blk t).view.emb j := by
    funext a; apply Fin.ext
    match a with
    | ⟨0, _⟩ => show win4_2.index t (0 : Fin 2) * 10000 + 1 * (j 0).val = win4_0.index t (0 : Fin 2) * 10000 + 1 * (j 0).val; omega
    | ⟨1, _⟩ => show win4_2.index t (1 : Fin 2) * 64 + 1 * (j 1).val = win4_0.index t (1 : Fin 2) * 64 + 1 * (j 1).val; omega
  rw [h2]
  refine tile_rows (V c main_v56) (V c main_v34) (fun y => ((cfg4.win 0).blk t).view.emb y) (fun y => ((cfg4.win 1).blk t).view.emb y) (fun p q => ?_) j
  funext a; apply Fin.ext
  match a with
  | ⟨0, _⟩ => show win4_1.index t (0 : Fin 2) * 10000 + 1 * p.val = win4_0.index t (0 : Fin 2) * 10000 + 1 * p.val; omega
  | ⟨1, _⟩ => show win4_1.index t (1 : Fin 2) * 1 + 1 * 0 = 0; omega

/-- An index of the result array is in tile t's block iff each coordinate is in the block's range. -/
theorem mem_blk (t : Fin cfg4.N) (i : S1600000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole (Pipeline.arrRef spec4 2)).slice (win4_2.rect t)).set ↔ _
  rw [View.set_slice_whole, Rect.mem_set_unit]
  exact Iff.rfl

/-- Every edge row lies in some tile: row n in tile n / 10000. -/
theorem covered (i : S1600000x64.Idx) :
    ∃ t : Fin cfg4.N, (cfg4.win 2).flush t = true ∧ i ∈ ((cfg4.win 2).blk t).view.set := by
  have hi0 : (i 0).val < 1600000 := (i 0).isLt
  have hi1 : (i 1).val < 64 := (i 1).isLt
  have hN : cfg4.N = 160 := N_4
  refine ⟨⟨(i 0).val / 10000, by rw [hN]; omega⟩, flush4_2 _, ?_⟩
  rw [mem_blk]
  obtain ⟨e0, e1, e2, e3, e4, e5⟩ := tile_index ⟨(i 0).val / 10000, by rw [hN]; omega⟩
  intro a
  match a with
  | ⟨0, _⟩ =>
    show win4_2.index _ (0 : Fin 2) * 10000 ≤ (i 0).val ∧ (i 0).val < win4_2.index _ (0 : Fin 2) * 10000 + 10000
    rw [e4]; show (i 0).val / 10000 * 10000 ≤ (i 0).val ∧ (i 0).val < (i 0).val / 10000 * 10000 + 10000; omega
  | ⟨1, _⟩ =>
    show win4_2.index _ (1 : Fin 2) * 64 ≤ (i 1).val ∧ (i 1).val < win4_2.index _ (1 : Fin 2) * 64 + 64
    rw [e5]; omega

/-- The result array after the step: the gathered features, each row scaled by its coefficient. -/
theorem value (c : Dev nD) :
    (dat4 V c).arrAt 2 cfg4.N = Cert.Gcn.scaleRows (V c main_v56) (V c main_v34) :=
  (dat4 V c).arrAt_eq_of_cover 2 _ (fun t _ => flushed_eq V c t) covered

end Cert.KernelIdeal.ScaleTwo

end
-- ==== Proof.CombineTwo.lean ====
/-
  The closing step of layer two, read as a function of whole arrays.

  The step runs over 20 tiles of 5000 nodes. Tile t holds rows 5000·t … 5000·t + 4999 of the aggregated
  messages, of the layer's features and of the inverse-degree column, and the whole bias row, and writes those rows
  of the result: entry (p, q) is tanh (aggregate (p, q) + feature (p, q) · inverse degree (p, 0) + bias (0, q)).
  The tiles' rows partition the 100000 nodes, so the result array is that expression of the whole arrays.
-/
import proofs.«112770_j81913616269326_1_alg».proof.Proof.Gen.KernelIdeal.Frame
import proofs.«112770_j81913616269326_1_alg».proof.Proof.Spec
import proofs.«112770_j81913616269326_1_alg».proof.Proof.LibColBroadcast
import proofs.«112770_j81913616269326_1_alg».proof.Proof.LibRowBroadcasts
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.CombineTwo

open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- tanh of a vector, read at an index. -/
theorem tanh_at {s : Shape} {φ : FTy} (x : FVec Ideal s φ) (i : s.Idx) :
    Idealize.ShloMosaic.tanh x i = Ideal.tanh (x i) := rfl

/-- A tile's result at (p, q). -/
theorem tile_apply (x0 x1 : Vec Ideal S5000x64 .f32) (x2 : Vec Ideal S5000x1 .f32) (x3 : Vec Ideal S1x64 .f32)
    (p : Fin 5000) (q : Fin 64) :
    k5_pay1 x0 x1 x2 x3 (ix2 p q)
      = Ideal.tanh ((x0 (ix2 p q) + x1 (ix2 p q) * x2 (ix2 p (0 : Fin 1))) + x3 (ix2 (0 : Fin 1) q)) := by
  simp only [k5_pay1, tanh_at, addf_apply, mulf_apply, shapeCast_self, Cert.Lib.Cols.bcastCol_apply,
    Cert.Lib.Rows.bcastRow_apply]

/-- A tile whose rows are read from whole arrays at matching rows computes those rows of the closing step. -/
theorem tile_rows (A0 A1 : Cert.Gcn.Mat 100000 64) (A2 : Cert.Gcn.Mat 100000 1) (A3 : Cert.Gcn.Mat 1 64)
    (e0 e1 : S5000x64.Idx → S100000x64.Idx) (e2 : S5000x1.Idx → S100000x1.Idx) (e3 : S1x64.Idx → S1x64.Idx)
    (h1 : ∀ y, e1 y = e0 y)
    (h2 : ∀ (p : Fin 5000) (q : Fin 64), e2 (ix2 p (0 : Fin 1)) = ix2 (e0 (ix2 p q) 0) (0 : Fin 1))
    (h3 : ∀ (p : Fin 5000) (q : Fin 64), e3 (ix2 (0 : Fin 1) q) = ix2 (0 : Fin 1) (e0 (ix2 p q) 1))
    (y : S5000x64.Idx) :
    k5_pay1 (fun y => A0 (e0 y)) (fun y => A1 (e1 y)) (fun y => A2 (e2 y)) (fun y => A3 (e3 y)) y
      = Cert.Gcn.combine A0 A1 A2 A3 (e0 y) := by
  obtain ⟨p, q, rfl⟩ : ∃ (p : Fin 5000) (q : Fin 64), y = ix2 p q := ⟨y 0, y 1, eq_ix2 y⟩
  rw [tile_apply]
  unfold Cert.Gcn.combine
  rw [h1, h2 p q, h3 p q]
  rfl

/-- Tile t sits at block row t of the four row-tiled arrays; the bias row is one block. -/
theorem tile_index : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What tile t writes back is its block of the closing step of the whole arrays. -/
theorem flushed_eq (c : Dev nD) (t : Fin cfg5.N) :
    (dat5 V c).flushed 4 t
      = ((cfg5.win 4).blk t).view.read (Elt Ideal)
          (Cert.Gcn.combine (V c main_v60) (V c main_v49) (V c main_v33) (V c main_v61)) := by
  show (cfg5.win 4).cut (grid5.coords t) ((dat5 V c).after 4 t) = _
  rw [after5_4]
  unfold out5_4
  rw [View.canon_unit_zero zeroOffsets]
  simp only [View.ld_unit_zero (S := S5000x64) zeroOffsets, View.ld_unit_zero (S := S5000x1) zeroOffsets,
    View.ld_unit_zero (S := S1x64) zeroOffsets]
  obtain ⟨e0, e1, e2, e3, e4, e5, e6, e7, e8, e9⟩ := tile_index t
  funext j
  show k5_pay1 (fun y => V c main_v60 (((cfg5.win 0).blk t).view.emb y)) (fun y => V c main_v49 (((cfg5.win 1).blk t).view.emb y))
      (fun y => V c main_v33 (((cfg5.win 2).blk t).view.emb y)) (fun y => V c main_v61 (((cfg5.win 3).blk t).view.emb y)) j
    = Cert.Gcn.combine (V c main_v60) (V c main_v49) (V c main_v33) (V c main_v61) (((cfg5.win 4).blk t).view.emb j)
  have h4 : ((cfg5.win 4).blk t).view.emb j = ((cfg5.win 0).blk t).view.emb j := by
    funext a; apply Fin.ext
    match a with
    | ⟨0, _⟩ => show win5_4.index t (0 : Fin 2) * 5000 + 1 * (j 0).val = win5_0.index t (0 : Fin 2) * 5000 + 1 * (j 0).val; omega
    | ⟨1, _⟩ => show win5_4.index t (1 : Fin 2) * 64 + 1 * (j 1).val = win5_0.index t (1 : Fin 2) * 64 + 1 * (j 1).val; omega
  rw [h4]
  refine tile_rows (V c main_v60) (V c main_v49) (V c main_v33) (V c main_v61) (fun y => ((cfg5.win 0).blk t).view.emb y)
    (fun y => ((cfg5.win 1).blk t).view.emb y) (fun y => ((cfg5.win 2).blk t).view.emb y)
    (fun y => ((cfg5.win 3).blk t).view.emb y) (fun y => ?_) (fun p q => ?_) (fun p q => ?_) j
  · funext a; apply Fin.ext
    match a with
    | ⟨0, _⟩ => show win5_1.index t (0 : Fin 2) * 5000 + 1 * (y 0).val = win5_0.index t (0 : Fin 2) * 5000 + 1 * (y 0).val; omega
    | ⟨1, _⟩ => show win5_1.index t (1 : Fin 2) * 64 + 1 * (y 1).val = win5_0.index t (1 : Fin 2) * 64 + 1 * (y 1).val; omega
  · funext a; apply Fin.ext
    match a with
    | ⟨0, _⟩ => show win5_2.index t (0 : Fin 2) * 5000 + 1 * p.val = win5_0.index t (0 : Fin 2) * 5000 + 1 * p.val; omega
    | ⟨1, _⟩ => show win5_2.index t (1 : Fin 2) * 1 + 1 * 0 = 0; omega
  · funext a; apply Fin.ext
    match a with
    | ⟨0, _⟩ => show win5_3.index t (0 : Fin 2) * 1 + 1 * 0 = 0; omega
    | ⟨1, _⟩ => show win5_3.index t (1 : Fin 2) * 64 + 1 * q.val = win5_0.index t (1 : Fin 2) * 64 + 1 * q.val; omega

/-- An index of the result array is in tile t's block iff each coordinate is in the block's range. -/
theorem mem_blk (t : Fin cfg5.N) (i : S100000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole (Pipeline.arrRef spec5 4)).slice (win5_4.rect t)).set ↔ _
  rw [View.set_slice_whole, Rect.mem_set_unit]
  exact Iff.rfl

/-- Every node row lies in some tile: row n in tile n / 5000. -/
theorem covered (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  have hN : cfg5.N = 20 := N_5
  refine ⟨⟨(i 0).val / 5000, by rw [hN]; omega⟩, flush5_4 _, ?_⟩
  rw [mem_blk]
  obtain ⟨e0, e1, e2, e3, e4, e5, e6, e7, e8, e9⟩ := tile_index ⟨(i 0).val / 5000, by rw [hN]; omega⟩
  intro a
  match a with
  | ⟨0, _⟩ =>
    show win5_4.index _ (0 : Fin 2) * 5000 ≤ (i 0).val ∧ (i 0).val < win5_4.index _ (0 : Fin 2) * 5000 + 5000
    rw [e8]; show (i 0).val / 5000 * 5000 ≤ (i 0).val ∧ (i 0).val < (i 0).val / 5000 * 5000 + 5000; omega
  | ⟨1, _⟩ =>
    show win5_4.index _ (1 : Fin 2) * 64 ≤ (i 1).val ∧ (i 1).val < win5_4.index _ (1 : Fin 2) * 64 + 64
    rw [e9]; omega

/-- The result array after the step. -/
theorem value (c : Dev nD) :
    (dat5 V c).arrAt 4 cfg5.N = Cert.Gcn.combine (V c main_v60) (V c main_v49) (V c main_v33) (V c main_v61) :=
  (dat5 V c).arrAt_eq_of_cover 4 _ (fun t _ => flushed_eq V c t) covered

end Cert.KernelIdeal.CombineTwo

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.KernelValue.lean ====
/-
  The idealized program's result as a function of its arguments.

  Reading the boundary contents forward through the program: the first stretch of whole-array operations computes,
  from the edge array alone, the wrapped source and target indices, the node degrees, the edge coefficients and the
  inverse degrees; layer one is a matrix product (a tiled step), a gather along the edges, the scaling of the gathered
  rows (a tiled step), a scatter-add at the target nodes, and the closing step (a tiled step); layer two is the same on
  layer one's result; the head is one tiled step. Each tiled step's result array is its whole-array function of
  the contents at its entry, each whole-array operation's result its function of the contents before it, and a buffer
  nobody wrote in between is carried along. Composed, the result buffer holds the network of the arguments.
-/
import proofs.«112770_j81913616269326_1_alg».proof.Proof.Gen.KernelIdeal.Frame
import proofs.«112770_j81913616269326_1_alg».proof.Proof.Spec
import proofs.«112770_j81913616269326_1_alg».proof.Proof.Carry
import proofs.«112770_j81913616269326_1_alg».proof.Proof.TransformOne
import proofs.«112770_j81913616269326_1_alg».proof.Proof.ScaleOne
import proofs.«112770_j81913616269326_1_alg».proof.Proof.CombineOne
import proofs.«112770_j81913616269326_1_alg».proof.Proof.TransformTwo
import proofs.«112770_j81913616269326_1_alg».proof.Proof.ScaleTwo
import proofs.«112770_j81913616269326_1_alg».proof.Proof.CombineTwo
import proofs.«112770_j81913616269326_1_alg».proof.Proof.LibColBroadcast
import proofs.«112770_j81913616269326_1_alg».proof.Proof.LibMergeRows
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.StableHlo

namespace Cert.Gcn

variable {a b : Nat}

/-- A vector reshaped to a one-row matrix is that vector as a row. -/
theorem castRow_eq (v : FVec Ideal ⟨1, ![b]⟩ .f32) (h : (⟨1, ![b]⟩ : Shape).ShapeCasts ⟨2, ![1, b]⟩) :
    shapeCast ⟨2, ![1, b]⟩ v h = rowOf v := by
  funext i
  obtain ⟨u, q, rfl⟩ : ∃ (u : Fin 1) (q : Fin b), i = ix2 u q := ⟨i 0, i 1, eq_ix2 i⟩
  obtain rfl : u = 0 := Subsingleton.elim _ _
  exact Cert.Lib.MergeRows.row_apply v h q

/-- A vector reshaped to a one-column matrix is that vector as a column. -/
theorem castCol_eq (v : FVec Ideal ⟨1, ![a]⟩ .f32) (h : (⟨1, ![a]⟩ : Shape).ShapeCasts ⟨2, ![a, 1]⟩) :
    shapeCast ⟨2, ![a, 1]⟩ v h = colOf v := by
  funext i
  obtain ⟨p, u, rfl⟩ : ∃ (p : Fin a) (u : Fin 1), i = ix2 p u := ⟨i 0, i 1, eq_ix2 i⟩
  obtain rfl : u = 0 := Subsingleton.elim _ _
  exact Cert.Lib.Cols.col_apply v h p

end Cert.Gcn

namespace Cert.KernelIdeal.Side

open Cert.KernelIdeal Cert.KernelIdeal.Gen Cert.KernelIdeal.Carry

/-! ## The graph's structure, from the edge array alone -/

section Graph

variable (x1 : (⟨S2x1600000, .i32⟩ : BufTy).Contents (Elt Ideal))

/-- The source row of the edge array. -/
def srcRaw : (⟨S1600000, .i32⟩ : BufTy).Contents (Elt Ideal) :=
  shapeCast _ (extractStridedSlice S1x1600000 ![0, 0] x1 slices_S2x1600000_S1x1600000_0_0) shapeCasts_S1x1600000_S1600000

/-- The target row of the edge array. -/
def dstRaw : (⟨S1600000, .i32⟩ : BufTy).Contents (Elt Ideal) :=
  shapeCast _ (extractStridedSlice S1x1600000 ![1, 0] x1 slices_S2x1600000_S1x1600000_1_0) shapeCasts_S1x1600000_S1600000

/-- The source indices, negative entries wrapped around, as an index column. -/
def srcIdx : (⟨S1600000x1, .i32⟩ : BufTy).Contents (Elt Ideal) :=
  broadcastInDim S1600000x1 ![0] bcast_S1600000_S1600000x1_0 (select (cmpi .slt (srcRaw x1) (broadcastInDim S1600000 ![] bcast_S_S1600000 (constantI S_ 32 0#32))) (addi (srcRaw x1) (broadcastInDim S1600000 ![] bcast_S_S1600000 (constantI S_ 32 100000#32))) (srcRaw x1))

/-- The target indices, negative entries wrapped around, as an index column. -/
def dstIdx : (⟨S1600000x1, .i32⟩ : BufTy).Contents (Elt Ideal) :=
  broadcastInDim S1600000x1 ![0] bcast_S1600000_S1600000x1_0 (select (cmpi .slt (dstRaw x1) (broadcastInDim S1600000 ![] bcast_S_S1600000 (constantI S_ 32 0#32))) (addi (dstRaw x1) (broadcastInDim S1600000 ![] bcast_S_S1600000 (constantI S_ 32 100000#32))) (dstRaw x1))

/-- The target indices as given, as an index column. -/
def dstCol : (⟨S1600000x1, .i32⟩ : BufTy).Contents (Elt Ideal) :=
  broadcastInDim S1600000x1 ![0] bcast_S1600000_S1600000x1_0 (dstRaw x1)

/-- A node's degree: one per incoming edge, plus one for its self-loop. -/
def degree : FVec Ideal S100000 .f32 :=
  addf (Host.scatterAdd scatter_S100000_S1600000x1_S1600000_n_0_0_1 (broadcastInDim S100000 ![] bcast_S_S100000 (constant S_ .f32 0x00000000#32)) (dstIdx x1) (broadcastInDim S1600000 ![] bcast_S_S1600000 (constant S_ .f32 0x3F800000#32))) (broadcastInDim S100000 ![] bcast_S_S100000 (constant S_ .f32 0x3F800000#32))

/-- An edge's coefficient: the inverse square roots of its two endpoints' degrees, multiplied. -/
def coeff : FVec Ideal S1600000 .f32 :=
  mulf (Host.gather gather_S100000_S1600000x1_S1600000_n_0_n_n_0_1_1 (Host.rsqrt (degree x1)) (srcIdx x1)) (Host.gather gather_S100000_S1600000x1_S1600000_n_0_n_n_0_1_1 (Host.rsqrt (degree x1)) (dstIdx x1))

/-- One over a node's degree. -/
def invDeg : FVec Ideal S100000 .f32 :=
  Host.divf (broadcastInDim S100000 ![] bcast_S_S100000 (constant S_ .f32 0x3F800000#32)) (degree x1)

/-- The features gathered along the edges: row e is the source node's row. -/
def gatherRows (xl : Cert.Gcn.Mat 100000 64) : Cert.Gcn.Mat 1600000 64 :=
  Host.gather gather_S100000x64_S1600000x1_S1600000x64_1_0_n_n_0_1_164 xl (srcIdx x1)

/-- The edge rows added up at their target nodes. -/
def addRows (u : Cert.Gcn.Mat 1600000 64) : Cert.Gcn.Mat 100000 64 :=
  Host.scatterAdd scatter_S100000x64_S1600000x1_S1600000x64_1_0_0_1 (broadcastInDim S100000x64 ![] bcast_S_S100000x64 (constant S_ .f32 0x00000000#32)) (dstCol x1) u

end Graph

variable (m : (ℓ : Loc nD τ sig) → Buf (Elt Ideal) ℓ) (ρ : Dev nD → PrngReg)

/-! ## After the first stretch -/

theorem first_v1 (c : Dev nD) : W1 m ρ c (Proc.devRef .tc main_v1) = srcRaw (m ((c : Thread nD τ).loc main_arg1)) := by
  show StableHlo.after hostOps0 (W0 m ρ c) (Proc.devRef .tc main_v1) = _
  after_results_simp
  rfl

theorem first_v3 (c : Dev nD) : W1 m ρ c (Proc.devRef .tc main_v3) = dstRaw (m ((c : Thread nD τ).loc main_arg1)) := by
  show StableHlo.after hostOps0 (W0 m ρ c) (Proc.devRef .tc main_v3) = _
  after_results_simp
  rfl

theorem first_v33 (c : Dev nD) :
    W1 m ρ c (Proc.devRef .tc main_v33) = shapeCast S100000x1 (invDeg (m ((c : Thread nD τ).loc main_arg1))) shapeCasts_S100000_S100000x1 := by
  show StableHlo.after hostOps0 (W0 m ρ c) (Proc.devRef .tc main_v33) = _
  after_results_simp
  rfl

theorem first_v34 (c : Dev nD) :
    W1 m ρ c (Proc.devRef .tc main_v34) = shapeCast S1600000x1 (coeff (m ((c : Thread nD τ).loc main_arg1))) shapeCasts_S1600000_S1600000x1 := by
  show StableHlo.after hostOps0 (W0 m ρ c) (Proc.devRef .tc main_v34) = _
  after_results_simp
  rfl

/-! ## The stages -/

/-- The edge coefficients as the column the scaling step reads. -/
abbrev coeffCol (x1 : (⟨S2x1600000, .i32⟩ : BufTy).Contents (Elt Ideal)) : Cert.Gcn.Mat 1600000 1 :=
  shapeCast S1600000x1 (coeff x1) shapeCasts_S1600000_S1600000x1

/-- The inverse degrees as the column the closing step reads. -/
abbrev invDegCol (x1 : (⟨S2x1600000, .i32⟩ : BufTy).Contents (Elt Ideal)) : Cert.Gcn.Mat 100000 1 :=
  shapeCast S100000x1 (invDeg x1) shapeCasts_S100000_S100000x1

/-- One layer's message passing over transformed features, with the layer's bias vector. -/
def layerOf (x1 : (⟨S2x1600000, .i32⟩ : BufTy).Contents (Elt Ideal)) (xl : Cert.Gcn.Mat 100000 64)
    (bias : FVec Ideal S64 .f32) : Cert.Gcn.Mat 100000 64 :=
  Cert.Gcn.layer (gatherRows x1) (addRows x1) (coeffCol x1) (invDegCol x1) xl (shapeCast S1x64 bias shapeCasts_S64_S1x64)

/-- Layer one's transformed features. -/
def xl1 (c : Dev nD) : Cert.Gcn.Mat 100000 64 := Cert.Gcn.matProd (m ((c : Thread nD τ).loc main_arg0)) (m ((c : Thread nD τ).loc main_arg2))
/-- Layer one's result. -/
def h1 (c : Dev nD) : Cert.Gcn.Mat 100000 64 := layerOf (m ((c : Thread nD τ).loc main_arg1)) (xl1 m c) (m ((c : Thread nD τ).loc main_arg3))
/-- Layer two's transformed features. -/
def xl2 (c : Dev nD) : Cert.Gcn.Mat 100000 64 := Cert.Gcn.matProd (h1 m c) (m ((c : Thread nD τ).loc main_arg4))
/-- Layer two's result. -/
def h2 (c : Dev nD) : Cert.Gcn.Mat 100000 64 := layerOf (m ((c : Thread nD τ).loc main_arg1)) (xl2 m c) (m ((c : Thread nD τ).loc main_arg5))

theorem s2 (c : Dev nD) : W2 m ρ c (Proc.devRef .tc main_v35) = xl1 m c := by
  refine (W2_arr m ρ c 2).trans ((Cert.KernelIdeal.TransformOne.value (V1 m ρ) c).trans ?_)
  show Cert.Gcn.matProd (W1 m ρ c (Proc.devRef .tc main_arg0)) (W1 m ρ c (Proc.devRef .tc main_arg2)) = _
  rw [launch1 m ρ c (b := main_arg0) (by decide), launch1 m ρ c (b := main_arg2) (by decide)]
  rfl

theorem s3 (c : Dev nD) : W3 m ρ c (Proc.devRef .tc main_v42) = gatherRows (m ((c : Thread nD τ).loc main_arg1)) (xl1 m c) := by
  show StableHlo.after hostOps1 (W2 m ρ c) (Proc.devRef .tc main_v42) = _
  after_results
  rw [s2 m ρ c, (at2 m ρ c (b := main_v1) (by decide)).trans (first_v1 m ρ c)]
  rfl

theorem s4 (c : Dev nD) :
    W4 m ρ c (Proc.devRef .tc main_v43) = Cert.Gcn.scaleRows (gatherRows (m ((c : Thread nD τ).loc main_arg1)) (xl1 m c)) (coeffCol (m ((c : Thread nD τ).loc main_arg1))) := by
  refine (W4_arr m ρ c 2).trans ((Cert.KernelIdeal.ScaleOne.value (V3 m ρ) c).trans ?_)
  show Cert.Gcn.scaleRows (W3 m ρ c (Proc.devRef .tc main_v42)) (W3 m ρ c (Proc.devRef .tc main_v34)) = _
  rw [s3 m ρ c, (at3 m ρ c (b := main_v34) (by decide)).trans (first_v34 m ρ c)]

theorem s5 (c : Dev nD) :
    W5 m ρ c (Proc.devRef .tc main_v46)
      = addRows (m ((c : Thread nD τ).loc main_arg1)) (Cert.Gcn.scaleRows (gatherRows (m ((c : Thread nD τ).loc main_arg1)) (xl1 m c)) (coeffCol (m ((c : Thread nD τ).loc main_arg1)))) := by
  show StableHlo.after hostOps2 (W4 m ρ c) (Proc.devRef .tc main_v46) = _
  after_results
  rw [s4 m ρ c, (at4 m ρ c (b := main_v3) (by decide)).trans (first_v3 m ρ c)]
  rfl

theorem s5b (c : Dev nD) : W5 m ρ c (Proc.devRef .tc main_v47) = shapeCast S1x64 (m ((c : Thread nD τ).loc main_arg3)) shapeCasts_S64_S1x64 := by
  show StableHlo.after hostOps2 (W4 m ρ c) (Proc.devRef .tc main_v47) = _
  after_results
  rw [(at4 m ρ c (b := main_arg3) (by decide)).trans (launch1 m ρ c (b := main_arg3) (by decide))]
  rfl

theorem s5c (c : Dev nD) : W5 m ρ c (Proc.devRef .tc main_v35) = xl1 m c :=
  (hostKeep2 m ρ c main_v35 (by decide)).trans ((stepKeep1 m ρ c main_v35 (by decide)).trans
    ((hostKeep1 m ρ c main_v35 (by decide)).trans (s2 m ρ c)))

theorem s5d (c : Dev nD) : W5 m ρ c (Proc.devRef .tc main_v33) = invDegCol (m ((c : Thread nD τ).loc main_arg1)) :=
  (at5 m ρ c (b := main_v33) (by decide)).trans (first_v33 m ρ c)

theorem s6 (c : Dev nD) : W6 m ρ c (Proc.devRef .tc main_v48) = h1 m c := by
  refine (W6_arr m ρ c 4).trans ((Cert.KernelIdeal.CombineOne.value (V5 m ρ) c).trans ?_)
  show Cert.Gcn.combine (W5 m ρ c (Proc.devRef .tc main_v46)) (W5 m ρ c (Proc.devRef .tc main_v35)) (W5 m ρ c (Proc.devRef .tc main_v33)) (W5 m ρ c (Proc.devRef .tc main_v47)) = _
  rw [s5 m ρ c, s5b m ρ c, s5c m ρ c, s5d m ρ c]
  rfl

theorem s7 (c : Dev nD) : W7 m ρ c (Proc.devRef .tc main_v49) = xl2 m c := by
  refine (W7_arr m ρ c 2).trans ((Cert.KernelIdeal.TransformTwo.value (V6 m ρ) c).trans ?_)
  show Cert.Gcn.matProd (W6 m ρ c (Proc.devRef .tc main_v48)) (W6 m ρ c (Proc.devRef .tc main_arg4)) = _
  rw [s6 m ρ c, (at6 m ρ c (b := main_arg4) (by decide)).trans (launch1 m ρ c (b := main_arg4) (by decide))]
  rfl

theorem s8 (c : Dev nD) : W8 m ρ c (Proc.devRef .tc main_v56) = gatherRows (m ((c : Thread nD τ).loc main_arg1)) (xl2 m c) := by
  show StableHlo.after hostOps4 (W7 m ρ c) (Proc.devRef .tc main_v56) = _
  after_results
  rw [s7 m ρ c, (at7 m ρ c (b := main_v1) (by decide)).trans (first_v1 m ρ c)]
  rfl

theorem s9 (c : Dev nD) :
    W9 m ρ c (Proc.devRef .tc main_v57) = Cert.Gcn.scaleRows (gatherRows (m ((c : Thread nD τ).loc main_arg1)) (xl2 m c)) (coeffCol (m ((c : Thread nD τ).loc main_arg1))) := by
  refine (W9_arr m ρ c 2).trans ((Cert.KernelIdeal.ScaleTwo.value (V8 m ρ) c).trans ?_)
  show Cert.Gcn.scaleRows (W8 m ρ c (Proc.devRef .tc main_v56)) (W8 m ρ c (Proc.devRef .tc main_v34)) = _
  rw [s8 m ρ c, (at8 m ρ c (b := main_v34) (by decide)).trans (first_v34 m ρ c)]

theorem s10 (c : Dev nD) :
    W10 m ρ c (Proc.devRef .tc main_v60)
      = addRows (m ((c : Thread nD τ).loc main_arg1)) (Cert.Gcn.scaleRows (gatherRows (m ((c : Thread nD τ).loc main_arg1)) (xl2 m c)) (coeffCol (m ((c : Thread nD τ).loc main_arg1)))) := by
  show StableHlo.after hostOps5 (W9 m ρ c) (Proc.devRef .tc main_v60) = _
  after_results
  rw [s9 m ρ c, (at9 m ρ c (b := main_v3) (by decide)).trans (first_v3 m ρ c)]
  rfl

theorem s10b (c : Dev nD) : W10 m ρ c (Proc.devRef .tc main_v61) = shapeCast S1x64 (m ((c : Thread nD τ).loc main_arg5)) shapeCasts_S64_S1x64 := by
  show StableHlo.after hostOps5 (W9 m ρ c) (Proc.devRef .tc main_v61) = _
  after_results
  rw [(at9 m ρ c (b := main_arg5) (by decide)).trans (launch1 m ρ c (b := main_arg5) (by decide))]
  rfl

theorem s10c (c : Dev nD) : W10 m ρ c (Proc.devRef .tc main_v49) = xl2 m c :=
  (hostKeep5 m ρ c main_v49 (by decide)).trans ((stepKeep4 m ρ c main_v49 (by decide)).trans
    ((hostKeep4 m ρ c main_v49 (by decide)).trans (s7 m ρ c)))

theorem s10d (c : Dev nD) : W10 m ρ c (Proc.devRef .tc main_v33) = invDegCol (m ((c : Thread nD τ).loc main_arg1)) :=
  (at10 m ρ c (b := main_v33) (by decide)).trans (first_v33 m ρ c)

theorem s11 (c : Dev nD) : W11 m ρ c (Proc.devRef .tc main_v62) = h2 m c := by
  refine (W11_arr m ρ c 4).trans ((Cert.KernelIdeal.CombineTwo.value (V10 m ρ) c).trans ?_)
  show Cert.Gcn.combine (W10 m ρ c (Proc.devRef .tc main_v60)) (W10 m ρ c (Proc.devRef .tc main_v49)) (W10 m ρ c (Proc.devRef .tc main_v33)) (W10 m ρ c (Proc.devRef .tc main_v61)) = _
  rw [s10 m ρ c, s10b m ρ c, s10c m ρ c, s10d m ρ c]
  rfl

theorem s12 (c : Dev nD) : W12 m ρ c (Proc.devRef .tc main_v62) = h2 m c :=
  (hostKeep6 m ρ c main_v62 (by decide)).trans (s11 m ρ c)

theorem s12_v63 (c : Dev nD) : W12 m ρ c (Proc.devRef .tc main_v63) = shapeCast S1x64 (m ((c : Thread nD τ).loc main_arg7)) shapeCasts_S64_S1x64 := by
  show StableHlo.after hostOps6 (W11 m ρ c) (Proc.devRef .tc main_v63) = _
  after_results
  rw [(at11 m ρ c (b := main_arg7) (by decide)).trans (launch1 m ρ c (b := main_arg7) (by decide))]
  rfl

theorem s12_v64 (c : Dev nD) : W12 m ρ c (Proc.devRef .tc main_v64) = shapeCast S1x32 (m ((c : Thread nD τ).loc main_arg9)) shapeCasts_S32_S1x32 := by
  show StableHlo.after hostOps6 (W11 m ρ c) (Proc.devRef .tc main_v64) = _
  after_results
  rw [(at11 m ρ c (b := main_arg9) (by decide)).trans (launch1 m ρ c (b := main_arg9) (by decide))]
  rfl

theorem s12_v65 (c : Dev nD) : W12 m ρ c (Proc.devRef .tc main_v65) = shapeCast S1x1 (m ((c : Thread nD τ).loc main_arg11)) shapeCasts_S1_S1x1 := by
  show StableHlo.after hostOps6 (W11 m ρ c) (Proc.devRef .tc main_v65) = _
  after_results
  rw [(at11 m ρ c (b := main_arg11) (by decide)).trans (launch1 m ρ c (b := main_arg11) (by decide))]
  rfl

theorem s12_arg6 (c : Dev nD) : W12 m ρ c (Proc.devRef .tc main_arg6) = (m ((c : Thread nD τ).loc main_arg6)) :=
  (at12 m ρ c (b := main_arg6) (by decide)).trans (launch1 m ρ c (b := main_arg6) (by decide))
theorem s12_arg8 (c : Dev nD) : W12 m ρ c (Proc.devRef .tc main_arg8) = (m ((c : Thread nD τ).loc main_arg8)) :=
  (at12 m ρ c (b := main_arg8) (by decide)).trans (launch1 m ρ c (b := main_arg8) (by decide))
theorem s12_arg10 (c : Dev nD) : W12 m ρ c (Proc.devRef .tc main_arg10) = (m ((c : Thread nD τ).loc main_arg10)) :=
  (at12 m ρ c (b := main_arg10) (by decide)).trans (launch1 m ρ c (b := main_arg10) (by decide))

end Cert.KernelIdeal.Side

end
-- ==== Proof.HeadStep.lean ====
/-
  The three-layer head, read as a function of whole arrays.

  The step runs over 20 tiles of 5000 nodes. Tile t holds rows 5000·t … 5000·t + 4999 of the second layer's
  features and the whole of the three weight matrices and bias rows, and writes those rows of the result. On a tile
  the computation is three dense layers — a product into zero of operands narrowed to a shorter format (the identity
  on extended reals) plus a bias row broadcast down the rows — with tanh after the first two. A dense layer and tanh
  act row by row, so the head of a tile's rows is the tile's rows of the head of the whole feature array; the tiles'
  rows partition the 100000 nodes.
-/
import proofs.«112770_j81913616269326_1_alg».proof.Proof.Gen.KernelIdeal.Frame
import proofs.«112770_j81913616269326_1_alg».proof.Proof.Spec
import proofs.«112770_j81913616269326_1_alg».proof.Proof.LibPlainDot
import proofs.«112770_j81913616269326_1_alg».proof.Proof.LibRowBroadcasts
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

open scoped BigOperators

namespace Cert.Gcn

variable {a c b : Nat}

/-- The product into zero of the narrowed operands, plus the broadcast bias row, is the dense layer. -/
theorem dense_tile (wf : DotDims.WF ⟨2, ![a, c]⟩ ⟨2, ![c, b]⟩ ⟨2, ![a, b]⟩ [1] [0] [0] [1] [] [])
    (x : Mat a c) (w : Mat c b) (bias : Mat 1 b) (h1 h2 : FTy.bf16.bits < FTy.f32.bits)
    (hb : (⟨2, ![1, b]⟩ : Shape).Broadcasts ⟨2, ![a, b]⟩) :
    addf (matmul (Cert.Lib.PlainDot.dims wf) none (truncf .bf16 x h1) (truncf .bf16 w h2)
        (constant ⟨2, ![a, b]⟩ .f32 0x00000000#32)) (broadcastTo ⟨2, ![a, b]⟩ bias hb)
      = affine x w bias := by
  funext i
  obtain ⟨p, q, rfl⟩ : ∃ (p : Fin a) (q : Fin b), i = ix2 p q := ⟨i 0, i 1, eq_ix2 i⟩
  rw [addf_apply, Cert.Lib.PlainDot.matmul_zero_apply, Cert.Lib.Rows.bcastRow_apply]
  rfl

/-- The vector tanh is the activation. -/
theorem tanh_eq_act (x : Mat a b) : Idealize.ShloMosaic.tanh x = act x := rfl

end Cert.Gcn

namespace Cert.KernelIdeal.HeadStep

open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- On a tile the computation is the head of the tile's operands. -/
theorem tile_eq (x0 : Vec Ideal S5000x64 .f32) (x1 : Vec Ideal S64x64 .f32) (x2 : Vec Ideal S1x64 .f32)
    (x3 : Vec Ideal S64x32 .f32) (x4 : Vec Ideal S1x32 .f32) (x5 : Vec Ideal S32x1 .f32) (x6 : Vec Ideal S1x1 .f32) :
    k6_pay1 x0 x1 x2 x3 x4 x5 x6 = Cert.Gcn.head x0 x1 x2 x3 x4 x5 x6 := by
  have wf1 : DotDims.WF ⟨2, ![5000, 64]⟩ ⟨2, ![64, 64]⟩ ⟨2, ![5000, 64]⟩ [1] [0] [0] [1] [] [] :=
    dot_S5000x64_S64x64_S5000x64_1_0_0_1_n_n.wf
  have wf2 : DotDims.WF ⟨2, ![5000, 64]⟩ ⟨2, ![64, 32]⟩ ⟨2, ![5000, 32]⟩ [1] [0] [0] [1] [] [] :=
    dot_S5000x64_S64x32_S5000x32_1_0_0_1_n_n.wf
  have wf3 : DotDims.WF ⟨2, ![5000, 32]⟩ ⟨2, ![32, 1]⟩ ⟨2, ![5000, 1]⟩ [1] [0] [0] [1] [] [] :=
    dot_S5000x32_S32x1_S5000x1_1_0_0_1_n_n.wf
  have r1 : dot_S5000x64_S64x64_S5000x64_1_0_0_1_n_n = Cert.Lib.PlainDot.dims wf1 := rfl
  have r2 : dot_S5000x64_S64x32_S5000x32_1_0_0_1_n_n = Cert.Lib.PlainDot.dims wf2 := rfl
  have r3 : dot_S5000x32_S32x1_S5000x1_1_0_0_1_n_n = Cert.Lib.PlainDot.dims wf3 := rfl
  simp only [k6_pay1, shapeCast_self]
  rw [r1, r2, r3]
  rw [Cert.Gcn.dense_tile wf1, Cert.Gcn.tanh_eq_act, Cert.Gcn.dense_tile wf2, Cert.Gcn.tanh_eq_act, Cert.Gcn.dense_tile wf3]
  rfl

/-- A tile whose feature rows are read from the whole array at the result's rows computes those rows of the head. -/
theorem tile_rows (H : Cert.Gcn.Mat 100000 64) (W0 : Cert.Gcn.Mat 64 64) (B0 : Cert.Gcn.Mat 1 64)
    (W1 : Cert.Gcn.Mat 64 32) (B1 : Cert.Gcn.Mat 1 32) (W2 : Cert.Gcn.Mat 32 1) (B2 : Cert.Gcn.Mat 1 1)
    (e0 : S5000x64.Idx → S100000x64.Idx) (e1 : S64x64.Idx → S64x64.Idx) (e2 : S1x64.Idx → S1x64.Idx)
    (e3 : S64x32.Idx → S64x32.Idx) (e4 : S1x32.Idx → S1x32.Idx) (e5 : S32x1.Idx → S32x1.Idx) (e6 : S1x1.Idx → S1x1.Idx)
    (eo : S5000x1.Idx → S100000x1.Idx) (r : Fin 5000 → Fin 100000)
    (h0 : ∀ (p : Fin 5000) (k : Fin 64), e0 (ix2 p k) = ix2 (r p) k)
    (ho : ∀ p : Fin 5000, eo (ix2 p (0 : Fin 1)) = ix2 (r p) (0 : Fin 1))
    (h1 : ∀ y, e1 y = y) (h2 : ∀ y, e2 y = y) (h3 : ∀ y, e3 y = y) (h4 : ∀ y, e4 y = y) (h5 : ∀ y, e5 y = y)
    (h6 : ∀ y, e6 y = y) (y : S5000x1.Idx) :
    k6_pay1 (fun y => H (e0 y)) (fun y => W0 (e1 y)) (fun y => B0 (e2 y)) (fun y => W1 (e3 y)) (fun y => B1 (e4 y))
        (fun y => W2 (e5 y)) (fun y => B2 (e6 y)) y
      = Cert.Gcn.head H W0 B0 W1 B1 W2 B2 (eo y) := by
  have g1 : (fun y => W0 (e1 y)) = W0 := funext fun y => by rw [h1 y]
  have g2 : (fun y => B0 (e2 y)) = B0 := funext fun y => by rw [h2 y]
  have g3 : (fun y => W1 (e3 y)) = W1 := funext fun y => by rw [h3 y]
  have g4 : (fun y => B1 (e4 y)) = B1 := funext fun y => by rw [h4 y]
  have g5 : (fun y => W2 (e5 y)) = W2 := funext fun y => by rw [h5 y]
  have g6 : (fun y => B2 (e6 y)) = B2 := funext fun y => by rw [h6 y]
  rw [g1, g2, g3, g4, g5, g6]
  have hH : (fun y => H (e0 y)) = Cert.Gcn.rows r H := by
    funext y
    obtain ⟨p, k, rfl⟩ : ∃ (p : Fin 5000) (k : Fin 64), y = ix2 p k := ⟨y 0, y 1, eq_ix2 y⟩
    rw [h0]
    rfl
  rw [hH, tile_eq]
  obtain ⟨p, q, rfl⟩ : ∃ (p : Fin 5000) (q : Fin 1), y = ix2 p q := ⟨y 0, y 1, eq_ix2 y⟩
  obtain rfl : q = 0 := Subsingleton.elim _ _
  rw [ho p]
  rfl

/-- Tile t sits at block row t of the features and of the result; every weight and bias is one block. -/
theorem tile_index : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-- What tile t writes back is its block of the head of the whole arrays. -/
theorem flushed_eq (c : Dev nD) (t : Fin cfg6.N) :
    (dat6 V c).flushed 7 t
      = ((cfg6.win 7).blk t).view.read (Elt Ideal)
          (Cert.Gcn.head (V c main_v62) (V c main_arg6) (V c main_v63) (V c main_arg8) (V c main_v64) (V c main_arg10) (V c main_v65)) := by
  show (cfg6.win 7).cut (grid6.coords t) ((dat6 V c).after 7 t) = _
  rw [after6_7]
  unfold out6_7
  rw [View.canon_unit_zero zeroOffsets]
  simp only [View.ld_unit_zero (S := S5000x64) zeroOffsets, View.ld_unit_zero (S := S64x64) zeroOffsets,
    View.ld_unit_zero (S := S1x64) zeroOffsets, View.ld_unit_zero (S := S64x32) zeroOffsets,
    View.ld_unit_zero (S := S1x32) zeroOffsets, View.ld_unit_zero (S := S32x1) zeroOffsets,
    View.ld_unit_zero (S := S1x1) zeroOffsets]
  obtain ⟨e00, e01, e10, e11, e20, e21, e30, e31, e40, e41, e50, e51, e60, e61, e70, e71⟩ := tile_index t
  have ht : t.val < 20 := by
    have h := t.isLt
    have hN : cfg6.N = 20 := N_6
    omega
  funext j
  show k6_pay1 (fun y => V c main_v62 (((cfg6.win 0).blk t).view.emb y)) (fun y => V c main_arg6 (((cfg6.win 1).blk t).view.emb y))
      (fun y => V c main_v63 (((cfg6.win 2).blk t).view.emb y)) (fun y => V c main_arg8 (((cfg6.win 3).blk t).view.emb y))
      (fun y => V c main_v64 (((cfg6.win 4).blk t).view.emb y)) (fun y => V c main_arg10 (((cfg6.win 5).blk t).view.emb y))
      (fun y => V c main_v65 (((cfg6.win 6).blk t).view.emb y)) j
    = Cert.Gcn.head (V c main_v62) (V c main_arg6) (V c main_v63) (V c main_arg8) (V c main_v64) (V c main_arg10) (V c main_v65) (((cfg6.win 7).blk t).view.emb j)
  refine tile_rows (V c main_v62) (V c main_arg6) (V c main_v63) (V c main_arg8) (V c main_v64) (V c main_arg10) (V c main_v65)
    (fun y => ((cfg6.win 0).blk t).view.emb y) (fun y => ((cfg6.win 1).blk t).view.emb y) (fun y => ((cfg6.win 2).blk t).view.emb y)
    (fun y => ((cfg6.win 3).blk t).view.emb y) (fun y => ((cfg6.win 4).blk t).view.emb y) (fun y => ((cfg6.win 5).blk t).view.emb y)
    (fun y => ((cfg6.win 6).blk t).view.emb y) (fun y => ((cfg6.win 7).blk t).view.emb y)
    (fun p => ⟨t.val * 5000 + p.val, by have := p.isLt; omega⟩)
    (fun p k => ?_) (fun p => ?_) (fun y => ?_) (fun y => ?_) (fun y => ?_) (fun y => ?_) (fun y => ?_) (fun y => ?_) j
  · funext a; apply Fin.ext
    match a with
    | ⟨0, _⟩ => show win6_0.index t (0 : Fin 2) * 5000 + 1 * p.val = t.val * 5000 + p.val; omega
    | ⟨1, _⟩ => show win6_0.index t (1 : Fin 2) * 64 + 1 * k.val = k.val; omega
  · funext a; apply Fin.ext
    match a with
    | ⟨0, _⟩ => show win6_7.index t (0 : Fin 2) * 5000 + 1 * p.val = t.val * 5000 + p.val; omega
    | ⟨1, _⟩ => show win6_7.index t (1 : Fin 2) * 1 + 1 * 0 = 0; omega
  · funext a; apply Fin.ext
    match a with
    | ⟨0, _⟩ => show win6_1.index t (0 : Fin 2) * 64 + 1 * (y 0).val = (y 0).val; omega
    | ⟨1, _⟩ => show win6_1.index t (1 : Fin 2) * 64 + 1 * (y 1).val = (y 1).val; omega
  · funext a; apply Fin.ext
    match a with
    | ⟨0, _⟩ => show win6_2.index t (0 : Fin 2) * 1 + 1 * (y 0).val = (y 0).val; omega
    | ⟨1, _⟩ => show win6_2.index t (1 : Fin 2) * 64 + 1 * (y 1).val = (y 1).val; omega
  · funext a; apply Fin.ext
    match a with
    | ⟨0, _⟩ => show win6_3.index t (0 : Fin 2) * 64 + 1 * (y 0).val = (y 0).val; omega
    | ⟨1, _⟩ => show win6_3.index t (1 : Fin 2) * 32 + 1 * (y 1).val = (y 1).val; omega
  · funext a; apply Fin.ext
    match a with
    | ⟨0, _⟩ => show win6_4.index t (0 : Fin 2) * 1 + 1 * (y 0).val = (y 0).val; omega
    | ⟨1, _⟩ => show win6_4.index t (1 : Fin 2) * 32 + 1 * (y 1).val = (y 1).val; omega
  · funext a; apply Fin.ext
    match a with
    | ⟨0, _⟩ => show win6_5.index t (0 : Fin 2) * 32 + 1 * (y 0).val = (y 0).val; omega
    | ⟨1, _⟩ => show win6_5.index t (1 : Fin 2) * 1 + 1 * (y 1).val = (y 1).val; omega
  · funext a; apply Fin.ext
    match a with
    | ⟨0, _⟩ => show win6_6.index t (0 : Fin 2) * 1 + 1 * (y 0).val = (y 0).val; omega
    | ⟨1, _⟩ => show win6_6.index t (1 : Fin 2) * 1 + 1 * (y 1).val = (y 1).val; omega

/-- An index of the result array is in tile t's block iff each coordinate is in the block's range. -/
theorem mem_blk (t : Fin cfg6.N) (i : S100000x1.Idx) :
    i ∈ ((cfg6.win 7).blk t).view.set ↔ ∀ a : Fin 2, win6_7.index t a * S5000x1.size a ≤ (i a).val ∧ (i a).val < win6_7.index t a * S5000x1.size a + S5000x1.size a := by
  show i ∈ ((View.whole (Pipeline.arrRef spec6 7)).slice (win6_7.rect t)).set ↔ _
  rw [View.set_slice_whole, Rect.mem_set_unit]
  exact Iff.rfl

/-- Every node row lies in some tile: row n in tile n / 5000. -/
theorem covered (i : S100000x1.Idx) :
    ∃ t : Fin cfg6.N, (cfg6.win 7).flush t = true ∧ i ∈ ((cfg6.win 7).blk t).view.set := by
  have hi0 : (i 0).val < 100000 := (i 0).isLt
  have hi1 : (i 1).val < 1 := (i 1).isLt
  have hN : cfg6.N = 20 := N_6
  refine ⟨⟨(i 0).val / 5000, by rw [hN]; omega⟩, flush6_7 _, ?_⟩
  rw [mem_blk]
  obtain ⟨e00, e01, e10, e11, e20, e21, e30, e31, e40, e41, e50, e51, e60, e61, e70, e71⟩ := tile_index ⟨(i 0).val / 5000, by rw [hN]; omega⟩
  intro a
  match a with
  | ⟨0, _⟩ =>
    show win6_7.index _ (0 : Fin 2) * 5000 ≤ (i 0).val ∧ (i 0).val < win6_7.index _ (0 : Fin 2) * 5000 + 5000
    rw [e70]; show (i 0).val / 5000 * 5000 ≤ (i 0).val ∧ (i 0).val < (i 0).val / 5000 * 5000 + 5000; omega
  | ⟨1, _⟩ =>
    show win6_7.index _ (1 : Fin 2) * 1 ≤ (i 1).val ∧ (i 1).val < win6_7.index _ (1 : Fin 2) * 1 + 1
    rw [e71]; omega

/-- The result array after the step: the head of the whole arrays. -/
theorem value (c : Dev nD) :
    (dat6 V c).arrAt 7 cfg6.N
      = Cert.Gcn.head (V c main_v62) (V c main_arg6) (V c main_v63) (V c main_arg8) (V c main_v64) (V c main_arg10) (V c main_v65) :=
  (dat6 V c).arrAt_eq_of_cover 7 _ (fun t _ => flushed_eq V c t) covered

end Cert.KernelIdeal.HeadStep

end
-- ==== Proof.KernelNet.lean ====
/-
  The idealized program's result is the network of its arguments.

  The last tiled step computes the head of layer two's result with the head's weights and bias rows. Put after the
  two layers, the result buffer holds the whole network: two graph-convolution layers and the head, with the gather
  and the scatter-add determined by the edge array, the edge coefficients and inverse degrees as columns and the
  bias vectors as rows (a vector reshaped to a single row or column is that vector read along the row or column).
-/
import proofs.«112770_j81913616269326_1_alg».proof.Proof.KernelValue
import proofs.«112770_j81913616269326_1_alg».proof.Proof.HeadStep

set_option maxRecDepth 16384

noncomputable section

open Idealize.ShloMosaic Idealize.ShloMosaic.TcCoe Idealize.SL.Sem Idealize.ShloMosaic.ValueIdx

namespace Cert.KernelIdeal.Side

open Cert.KernelIdeal Cert.KernelIdeal.Gen Cert.KernelIdeal.Carry

variable (m : (ℓ : Loc nD τ sig) → Buf (Elt Ideal) ℓ) (ρ : Dev nD → PrngReg)

/-- The result buffer at the last boundary: the network of the arguments. -/
theorem result_eq (c : Dev nD) :
    W13 m ρ c (Proc.devRef .tc main_v66)
      = Cert.Gcn.net (gatherRows (m ((c : Thread nD τ).loc main_arg1))) (addRows (m ((c : Thread nD τ).loc main_arg1))) (Cert.Gcn.colOf (coeff (m ((c : Thread nD τ).loc main_arg1)))) (Cert.Gcn.colOf (invDeg (m ((c : Thread nD τ).loc main_arg1))))
          (m ((c : Thread nD τ).loc main_arg0)) (m ((c : Thread nD τ).loc main_arg2)) (Cert.Gcn.rowOf (m ((c : Thread nD τ).loc main_arg3))) (m ((c : Thread nD τ).loc main_arg4)) (Cert.Gcn.rowOf (m ((c : Thread nD τ).loc main_arg5)))
          (m ((c : Thread nD τ).loc main_arg6)) (Cert.Gcn.rowOf (m ((c : Thread nD τ).loc main_arg7))) (m ((c : Thread nD τ).loc main_arg8)) (Cert.Gcn.rowOf (m ((c : Thread nD τ).loc main_arg9))) (m ((c : Thread nD τ).loc main_arg10)) (Cert.Gcn.rowOf (m ((c : Thread nD τ).loc main_arg11))) := by
  have r3 : shapeCast S1x64 (m ((c : Thread nD τ).loc main_arg3)) shapeCasts_S64_S1x64 = Cert.Gcn.rowOf (m ((c : Thread nD τ).loc main_arg3)) := Cert.Gcn.castRow_eq _ _
  have r5 : shapeCast S1x64 (m ((c : Thread nD τ).loc main_arg5)) shapeCasts_S64_S1x64 = Cert.Gcn.rowOf (m ((c : Thread nD τ).loc main_arg5)) := Cert.Gcn.castRow_eq _ _
  have r7 : shapeCast S1x64 (m ((c : Thread nD τ).loc main_arg7)) shapeCasts_S64_S1x64 = Cert.Gcn.rowOf (m ((c : Thread nD τ).loc main_arg7)) := Cert.Gcn.castRow_eq _ _
  have r9 : shapeCast S1x32 (m ((c : Thread nD τ).loc main_arg9)) shapeCasts_S32_S1x32 = Cert.Gcn.rowOf (m ((c : Thread nD τ).loc main_arg9)) := Cert.Gcn.castRow_eq _ _
  have r11 : shapeCast S1x1 (m ((c : Thread nD τ).loc main_arg11)) shapeCasts_S1_S1x1 = Cert.Gcn.rowOf (m ((c : Thread nD τ).loc main_arg11)) := Cert.Gcn.castRow_eq _ _
  have rc : coeffCol (m ((c : Thread nD τ).loc main_arg1)) = Cert.Gcn.colOf (coeff (m ((c : Thread nD τ).loc main_arg1))) := Cert.Gcn.castCol_eq _ _
  have rd : invDegCol (m ((c : Thread nD τ).loc main_arg1)) = Cert.Gcn.colOf (invDeg (m ((c : Thread nD τ).loc main_arg1))) := Cert.Gcn.castCol_eq _ _
  refine (W13_arr m ρ c 7).trans ((Cert.KernelIdeal.HeadStep.value (V12 m ρ) c).trans ?_)
  show Cert.Gcn.head (W12 m ρ c (Proc.devRef .tc main_v62)) (W12 m ρ c (Proc.devRef .tc main_arg6)) (W12 m ρ c (Proc.devRef .tc main_v63))
      (W12 m ρ c (Proc.devRef .tc main_arg8)) (W12 m ρ c (Proc.devRef .tc main_v64)) (W12 m ρ c (Proc.devRef .tc main_arg10)) (W12 m ρ c (Proc.devRef .tc main_v65)) = _
  rw [s12 m ρ c, s12_arg6 m ρ c, s12_v63 m ρ c, s12_arg8 m ρ c, s12_v64 m ρ c, s12_arg10 m ρ c, s12_v65 m ρ c]
  unfold h2 xl2 h1 xl1 layerOf
  rw [r3, r5, r7, r9, r11, rc, rd]
  rfl

end Cert.KernelIdeal.Side

end
-- ==== Proof.RefSide.lean ====
/-
  The reference network, written with the graph network's whole-array steps.

  The reference computes, from the edge array alone, four arrays that both of its layers use: the source and the target
  index columns (a negative entry wrapped by the number of nodes), the degree of every node (the number of edges that
  arrive at it, plus one for the node's own loop), the coefficient of every edge (the reciprocal square roots of the
  degrees of its two ends, multiplied) and the reciprocal of every degree. A layer gathers the transformed features
  along the edges, scales every gathered row by its edge's coefficient, adds the rows up at their target nodes, adds the
  node's own features over its degree and the bias row, and takes tanh; the head is three dense layers. Each of these
  steps is, entry by entry, the step of the same name over matrices of extended reals, and the whole reference is their
  composition. The gather, the scatter-add, the reciprocal square root and the integer index arithmetic stay closed:
  they are carried as functions of whole arrays.
-/
import proofs.«112770_j81913616269326_1_alg».proof.Proof.Gen.ReferenceIdeal.Read
import proofs.«112770_j81913616269326_1_alg».proof.Proof.Spec
import proofs.«112770_j81913616269326_1_alg».proof.Proof.LibPlainDot
import proofs.«112770_j81913616269326_1_alg».proof.Proof.LibRowBroadcasts
import proofs.«112770_j81913616269326_1_alg».proof.Proof.LibColBroadcast

noncomputable section

namespace Cert.ReferenceIdeal.Side

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.Read
open Cert.Gcn (Mat matProd scaleRows combine affine act colOf rowOf layer head net)

/-! ## The arrays computed from the edges -/

/-- The source index column: row 0 of the edge array, a negative entry wrapped by the number of nodes. -/
def srcIdx (x1 : (⟨S2x1600000, .i32⟩ : BufTy).Contents (Elt Ideal)) : (⟨S1600000x1, .i32⟩ : BufTy).Contents (Elt Ideal) :=
  broadcastInDim S1600000x1 ![0] bcast_S1600000_S1600000x1_0
    (select
      (cmpi .slt
        (shapeCast _ (extractStridedSlice S1x1600000 ![0, 0] x1 slices_S2x1600000_S1x1600000_0_0) shapeCasts_S1x1600000_S1600000)
        (broadcastInDim S1600000 ![] bcast_S_S1600000 (constantI S_ 32 0#32)))
      (addi
        (shapeCast _ (extractStridedSlice S1x1600000 ![0, 0] x1 slices_S2x1600000_S1x1600000_0_0) shapeCasts_S1x1600000_S1600000)
        (broadcastInDim S1600000 ![] bcast_S_S1600000 (constantI S_ 32 100000#32)))
      (shapeCast _ (extractStridedSlice S1x1600000 ![0, 0] x1 slices_S2x1600000_S1x1600000_0_0) shapeCasts_S1x1600000_S1600000))

/-- The target index column: row 1 of the edge array, a negative entry wrapped by the number of nodes. -/
def dstIdx (x1 : (⟨S2x1600000, .i32⟩ : BufTy).Contents (Elt Ideal)) : (⟨S1600000x1, .i32⟩ : BufTy).Contents (Elt Ideal) :=
  broadcastInDim S1600000x1 ![0] bcast_S1600000_S1600000x1_0
    (select
      (cmpi .slt
        (shapeCast _ (extractStridedSlice S1x1600000 ![1, 0] x1 slices_S2x1600000_S1x1600000_1_0) shapeCasts_S1x1600000_S1600000)
        (broadcastInDim S1600000 ![] bcast_S_S1600000 (constantI S_ 32 0#32)))
      (addi
        (shapeCast _ (extractStridedSlice S1x1600000 ![1, 0] x1 slices_S2x1600000_S1x1600000_1_0) shapeCasts_S1x1600000_S1600000)
        (broadcastInDim S1600000 ![] bcast_S_S1600000 (constantI S_ 32 100000#32)))
      (shapeCast _ (extractStridedSlice S1x1600000 ![1, 0] x1 slices_S2x1600000_S1x1600000_1_0) shapeCasts_S1x1600000_S1600000))

/-- Row 1 of the edge array as a column, as it stands: the segment index of the scatter-add of the messages. -/
def dstCol (x1 : (⟨S2x1600000, .i32⟩ : BufTy).Contents (Elt Ideal)) : (⟨S1600000x1, .i32⟩ : BufTy).Contents (Elt Ideal) :=
  broadcastInDim S1600000x1 ![0] bcast_S1600000_S1600000x1_0
    (shapeCast _ (extractStridedSlice S1x1600000 ![1, 0] x1 slices_S2x1600000_S1x1600000_1_0) shapeCasts_S1x1600000_S1600000)

/-- The degree of every node: one for every edge that arrives at it, and one more. -/
def degree (x1 : (⟨S2x1600000, .i32⟩ : BufTy).Contents (Elt Ideal)) : FVec Ideal S100000 .f32 :=
  addf
    (Host.scatterAdd scatter_S100000_S1600000x1_S1600000_n_0_0_1
      (broadcastInDim S100000 ![] bcast_S_S100000 (constant S_ .f32 0x00000000#32))
      (dstIdx x1)
      (broadcastInDim S1600000 ![] bcast_S_S1600000 (constant S_ .f32 0x3F800000#32)))
    (broadcastInDim S100000 ![] bcast_S_S100000 (constant S_ .f32 0x3F800000#32))

/-- The coefficient of every edge: the reciprocal square roots of the degrees of its source and of its target, multiplied. -/
def coeff (x1 : (⟨S2x1600000, .i32⟩ : BufTy).Contents (Elt Ideal)) : FVec Ideal S1600000 .f32 :=
  mulf
    (Host.gather gather_S100000_S1600000x1_S1600000_n_0_n_n_0_1_1 (Host.rsqrt (degree x1)) (srcIdx x1))
    (Host.gather gather_S100000_S1600000x1_S1600000_n_0_n_n_0_1_1 (Host.rsqrt (degree x1)) (dstIdx x1))

/-- The reciprocal of every degree. -/
def invDeg (x1 : (⟨S2x1600000, .i32⟩ : BufTy).Contents (Elt Ideal)) : FVec Ideal S100000 .f32 :=
  Host.divf (broadcastInDim S100000 ![] bcast_S_S100000 (constant S_ .f32 0x3F800000#32)) (degree x1)

/-- The features of every edge's source node. -/
def gatherRows (x1 : (⟨S2x1600000, .i32⟩ : BufTy).Contents (Elt Ideal)) (xl : Mat 100000 64) : Mat 1600000 64 :=
  Host.gather gather_S100000x64_S1600000x1_S1600000x64_1_0_n_n_0_1_164 xl (srcIdx x1)

/-- The rows of the edges added up at their target nodes, from zero. -/
def addRows (x1 : (⟨S2x1600000, .i32⟩ : BufTy).Contents (Elt Ideal)) (u : Mat 1600000 64) : Mat 100000 64 :=
  Host.scatterAdd scatter_S100000x64_S1600000x1_S1600000x64_1_0_0_1
    (broadcastInDim S100000x64 ![] bcast_S_S100000x64 (constant S_ .f32 0x00000000#32)) (dstCol x1) u

/-! Each of these is the term the reference writes, at every place where it writes it. -/

theorem srcIdx_eq (x1 : (⟨S2x1600000, .i32⟩ : BufTy).Contents (Elt Ideal)) :
    val_main_v37 (F := Ideal) x1 = srcIdx x1 ∧ val_main_v22 (F := Ideal) x1 = srcIdx x1
      ∧ val_main_v73 (F := Ideal) x1 = srcIdx x1 ∧ val_main_v88 (F := Ideal) x1 = srcIdx x1 :=
  ⟨rfl, rfl, rfl, rfl⟩

theorem dstIdx_eq (x1 : (⟨S2x1600000, .i32⟩ : BufTy).Contents (Elt Ideal)) :
    val_main_v11 (F := Ideal) x1 = dstIdx x1 ∧ val_main_v29 (F := Ideal) x1 = dstIdx x1
      ∧ val_main_v62 (F := Ideal) x1 = dstIdx x1 ∧ val_main_v80 (F := Ideal) x1 = dstIdx x1 :=
  ⟨rfl, rfl, rfl, rfl⟩

theorem dstCol_eq (x1 : (⟨S2x1600000, .i32⟩ : BufTy).Contents (Elt Ideal)) :
    val_main_v43 (F := Ideal) x1 = dstCol x1 ∧ val_main_v94 (F := Ideal) x1 = dstCol x1 :=
  ⟨rfl, rfl⟩

theorem degree_eq (x1 : (⟨S2x1600000, .i32⟩ : BufTy).Contents (Elt Ideal)) :
    val_main_v15 (F := Ideal) x1 = degree x1 ∧ val_main_v66 (F := Ideal) x1 = degree x1 :=
  ⟨rfl, rfl⟩

theorem coeff_eq (x1 : (⟨S2x1600000, .i32⟩ : BufTy).Contents (Elt Ideal)) :
    val_main_v31 (F := Ideal) x1 = coeff x1 ∧ val_main_v82 (F := Ideal) x1 = coeff x1 :=
  ⟨rfl, rfl⟩

theorem invDeg_eq (x1 : (⟨S2x1600000, .i32⟩ : BufTy).Contents (Elt Ideal)) :
    val_main_v46 (F := Ideal) x1 = invDeg x1 ∧ val_main_v97 (F := Ideal) x1 = invDeg x1 :=
  ⟨rfl, rfl⟩

/-! ## The dense steps, entry by entry (any extents) -/

section Steps

variable {a c b : Nat}

/-- The host's plain product is the matrix product. -/
theorem dot_eq_matProd (wf : DotDims.WF ⟨2, ![a, c]⟩ ⟨2, ![c, b]⟩ ⟨2, ![a, b]⟩ [1] [0] [0] [1] [] [])
    (x : Mat a c) (w : Mat c b) :
    Host.dotGeneral (Cert.Lib.PlainDot.dims wf) none x w = matProd x w := by
  funext i
  obtain ⟨p, q, rfl⟩ : ∃ (p : Fin a) (q : Fin b), i = ix2 p q := ⟨i 0, i 1, eq_ix2 i⟩
  exact Cert.Lib.PlainDot.dotGeneral_apply wf none x w p q

/-- A vector broadcast along dimension 1 to a one-row matrix reads, at `(0, q)`, the vector at `q`. -/
theorem vecRow_apply {α : Type} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) :=
  broadcastInDim_apply _ h v (ix2 u q) (ix1 q) fun ax => by
    match ax with
    | ⟨0, _⟩ =>
      show q.val = if b = 1 then 0 else q.val
      split
      · have := q.isLt; omega
      · rfl

/-- A vector made a column and spread over the columns, times a matrix: every row scaled by its entry of the vector. -/
theorem mul_col_eq_scaleRows (h : (⟨2, ![a, 1]⟩ : Shape).BroadcastsInDim ⟨2, ![a, b]⟩ ![0, 1])
    (h' : (⟨1, ![a]⟩ : Shape).BroadcastsInDim ⟨2, ![a, 1]⟩ ![0]) (x : Mat a b) (s : FVec Ideal ⟨1, ![a]⟩ .f32) :
    mulf x (broadcastInDim ⟨2, ![a, b]⟩ ![0, 1] h (broadcastInDim ⟨2, ![a, 1]⟩ ![0] h' s)) = scaleRows x (colOf s) := by
  funext i
  obtain ⟨p, q, rfl⟩ : ∃ (p : Fin a) (q : Fin b), i = ix2 p q := ⟨i 0, i 1, eq_ix2 i⟩
  rw [mulf_apply, Cert.Lib.Rows.dimCol_apply, Cert.Lib.Cols.dimVec_apply]
  rfl

/-- A layer's closing step: tanh of the aggregate, plus the features over the degree, plus the bias row. -/
theorem close_eq_combine (h : (⟨2, ![a, 1]⟩ : Shape).BroadcastsInDim ⟨2, ![a, b]⟩ ![0, 1])
    (h' : (⟨1, ![a]⟩ : Shape).BroadcastsInDim ⟨2, ![a, 1]⟩ ![0])
    (g : (⟨2, ![1, b]⟩ : Shape).BroadcastsInDim ⟨2, ![a, b]⟩ ![0, 1])
    (g' : (⟨1, ![b]⟩ : Shape).BroadcastsInDim ⟨2, ![1, b]⟩ ![1])
    (agg xl : Mat a b) (d : FVec Ideal ⟨1, ![a]⟩ .f32) (bias : FVec Ideal ⟨1, ![b]⟩ .f32) :
    Host.tanh (addf (addf agg (mulf xl (broadcastInDim ⟨2, ![a, b]⟩ ![0, 1] h (broadcastInDim ⟨2, ![a, 1]⟩ ![0] h' d))))
        (broadcastInDim ⟨2, ![a, b]⟩ ![0, 1] g (broadcastInDim ⟨2, ![1, b]⟩ ![1] g' bias)))
      = combine agg xl (colOf d) (rowOf bias) := by
  funext i
  obtain ⟨p, q, rfl⟩ : ∃ (p : Fin a) (q : Fin b), i = ix2 p q := ⟨i 0, i 1, eq_ix2 i⟩
  show Ideal.tanh (addf (addf agg (mulf xl _)) _ (ix2 p q)) = _
  rw [addf_apply, addf_apply, mulf_apply, Cert.Lib.Rows.dimCol_apply, Cert.Lib.Cols.dimVec_apply,
    Cert.Lib.Rows.dimRow_apply, vecRow_apply]
  rfl

/-- A dense layer before its activation: the product plus the bias row. -/
theorem add_row_eq_affine (g : (⟨2, ![1, b]⟩ : Shape).BroadcastsInDim ⟨2, ![a, b]⟩ ![0, 1])
    (g' : (⟨1, ![b]⟩ : Shape).BroadcastsInDim ⟨2, ![1, b]⟩ ![1])
    (x : Mat a c) (w : Mat c b) (bias : FVec Ideal ⟨1, ![b]⟩ .f32) :
    addf (matProd x w) (broadcastInDim ⟨2, ![a, b]⟩ ![0, 1] g (broadcastInDim ⟨2, ![1, b]⟩ ![1] g' bias))
      = affine x w (rowOf bias) := by
  funext i
  obtain ⟨p, q, rfl⟩ : ∃ (p : Fin a) (q : Fin b), i = ix2 p q := ⟨i 0, i 1, eq_ix2 i⟩
  rw [addf_apply, Cert.Lib.Rows.dimRow_apply, vecRow_apply]
  rfl

/-- The host's tanh is the activation. -/
theorem tanh_eq_act (x : Mat a b) : Host.tanh x = act x := rfl

end Steps

/-! ## The reference, stage by stage -/

/-- One layer over the transformed features `xl`, as the reference writes it. -/
theorem layer_eq (x1 : (⟨S2x1600000, .i32⟩ : BufTy).Contents (Elt Ideal)) (xl : Mat 100000 64) (bias : FVec Ideal S64 .f32) :
    Host.tanh (addf
        (addf
          (Host.scatterAdd scatter_S100000x64_S1600000x1_S1600000x64_1_0_0_1
            (broadcastInDim S100000x64 ![] bcast_S_S100000x64 (constant S_ .f32 0x00000000#32)) (dstCol x1)
            (mulf (Host.gather gather_S100000x64_S1600000x1_S1600000x64_1_0_n_n_0_1_164 xl (srcIdx x1))
              (broadcastInDim S1600000x64 ![0, 1] bcast_S1600000x1_S1600000x64_0_1
                (broadcastInDim S1600000x1 ![0] bcast_S1600000_S1600000x1_0 (coeff x1)))))
          (mulf xl (broadcastInDim S100000x64 ![0, 1] bcast_S100000x1_S100000x64_0_1
            (broadcastInDim S100000x1 ![0] bcast_S100000_S100000x1_0 (invDeg x1)))))
        (broadcastInDim S100000x64 ![0, 1] bcast_S1x64_S100000x64_0_1 (broadcastInDim S1x64 ![1] bcast_S64_S1x64_1 bias)))
      = layer (gatherRows x1) (addRows x1) (colOf (coeff x1)) (colOf (invDeg x1)) xl (rowOf bias) := by
  rw [mul_col_eq_scaleRows bcast_S1600000x1_S1600000x64_0_1 bcast_S1600000_S1600000x1_0
    (Host.gather gather_S100000x64_S1600000x1_S1600000x64_1_0_n_n_0_1_164 xl (srcIdx x1)) (coeff x1)]
  exact close_eq_combine bcast_S100000x1_S100000x64_0_1 bcast_S100000_S100000x1_0 bcast_S1x64_S100000x64_0_1
    bcast_S64_S1x64_1 _ xl (invDeg x1) bias

/-- The first product. -/
theorem transformOne_eq (x0 : (⟨S100000x128, .f32⟩ : BufTy).Contents (Elt Ideal)) (x2 : (⟨S128x64, .f32⟩ : BufTy).Contents (Elt Ideal)) :
    val_main_v4 (F := Ideal) x0 x2 = matProd x0 x2 :=
  dot_eq_matProd dot_S100000x128_S128x64_S100000x64_1_0_0_1_n_n.wf x0 x2

/-- The first layer. -/
theorem layerOne_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) :
    val_main_v54 (F := Ideal) x0 x1 x2 x3 = layer (gatherRows x1) (addRows x1) (colOf (coeff x1)) (colOf (invDeg x1)) (matProd x0 x2) (rowOf x3) :=
  (layer_eq x1 (val_main_v4 (F := Ideal) x0 x2) x3).trans (by rw [transformOne_eq x0 x2])

/-- The second product. -/
theorem transformTwo_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) :
    val_main_v55 (F := Ideal) x0 x1 x2 x3 x4 = matProd (val_main_v54 (F := Ideal) x0 x1 x2 x3) x4 :=
  dot_eq_matProd dot_S100000x64_S64x64_S100000x64_1_0_0_1_n_n.wf _ x4

/-- The second layer. -/
theorem layerTwo_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    val_main_v105 (F := Ideal) x0 x1 x2 x3 x4 x5
      = layer (gatherRows x1) (addRows x1) (colOf (coeff x1)) (colOf (invDeg x1)) (matProd (layer (gatherRows x1) (addRows x1) (colOf (coeff x1)) (colOf (invDeg x1)) (matProd x0 x2) (rowOf x3)) x4) (rowOf x5) :=
  (layer_eq x1 (val_main_v55 (F := Ideal) x0 x1 x2 x3 x4) x5).trans
    (by rw [transformTwo_eq x0 x1 x2 x3 x4, layerOne_eq x0 x1 x2 x3])

/-- The head's first dense layer. -/
theorem denseOne_eq (h : Mat 100000 64) (w : Mat 64 64) (bias : FVec Ideal S64 .f32) :
    addf (Host.dotGeneral dot_S100000x64_S64x64_S100000x64_1_0_0_1_n_n none h w)
        (broadcastInDim S100000x64 ![0, 1] bcast_S1x64_S100000x64_0_1 (broadcastInDim S1x64 ![1] bcast_S64_S1x64_1 bias))
      = affine h w (rowOf bias) := by
  have e : Host.dotGeneral dot_S100000x64_S64x64_S100000x64_1_0_0_1_n_n none h w = matProd h w :=
    dot_eq_matProd dot_S100000x64_S64x64_S100000x64_1_0_0_1_n_n.wf h w
  rw [e]
  exact add_row_eq_affine bcast_S1x64_S100000x64_0_1 bcast_S64_S1x64_1 h w bias

/-- The head's second dense layer. -/
theorem denseTwo_eq (h : Mat 100000 64) (w : Mat 64 32) (bias : FVec Ideal S32 .f32) :
    addf (Host.dotGeneral dot_S100000x64_S64x32_S100000x32_1_0_0_1_n_n none h w)
        (broadcastInDim S100000x32 ![0, 1] bcast_S1x32_S100000x32_0_1 (broadcastInDim S1x32 ![1] bcast_S32_S1x32_1 bias))
      = affine h w (rowOf bias) := by
  have e : Host.dotGeneral dot_S100000x64_S64x32_S100000x32_1_0_0_1_n_n none h w = matProd h w :=
    dot_eq_matProd dot_S100000x64_S64x32_S100000x32_1_0_0_1_n_n.wf h w
  rw [e]
  exact add_row_eq_affine bcast_S1x32_S100000x32_0_1 bcast_S32_S1x32_1 h w bias

/-- The head's last dense layer. -/
theorem denseThree_eq (h : Mat 100000 32) (w : Mat 32 1) (bias : FVec Ideal S1 .f32) :
    addf (Host.dotGeneral dot_S100000x32_S32x1_S100000x1_1_0_0_1_n_n none h w)
        (broadcastInDim S100000x1 ![0, 1] bcast_S1x1_S100000x1_0_1 (broadcastInDim S1x1 ![1] bcast_S1_S1x1_1 bias))
      = affine h w (rowOf bias) := by
  have e : Host.dotGeneral dot_S100000x32_S32x1_S100000x1_1_0_0_1_n_n none h w = matProd h w :=
    dot_eq_matProd dot_S100000x32_S32x1_S100000x1_1_0_0_1_n_n.wf h w
  rw [e]
  exact add_row_eq_affine bcast_S1x1_S100000x1_0_1 bcast_S1_S1x1_1 h w bias

/-- The head after its first activation. -/
theorem headOne_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    val_main_v110 (F := Ideal) x0 x1 x2 x3 x4 x5 x6 x7
      = act (affine (layer (gatherRows x1) (addRows x1) (colOf (coeff x1)) (colOf (invDeg x1)) (matProd (layer (gatherRows x1) (addRows x1) (colOf (coeff x1)) (colOf (invDeg x1)) (matProd x0 x2) (rowOf x3)) x4) (rowOf x5)) x6 (rowOf x7)) := by
  unfold val_main_v110 val_main_v109 val_main_v108 val_main_v107 val_main_v106
  rw [layerTwo_eq x0 x1 x2 x3 x4 x5, denseOne_eq, tanh_eq_act]

/-- The head after its second activation. -/
theorem headTwo_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal)) :
    val_main_v115 (F := Ideal) x0 x1 x2 x3 x4 x5 x6 x7 x8 x9
      = act (affine (act (affine (layer (gatherRows x1) (addRows x1) (colOf (coeff x1)) (colOf (invDeg x1)) (matProd (layer (gatherRows x1) (addRows x1) (colOf (coeff x1)) (colOf (invDeg x1)) (matProd x0 x2) (rowOf x3)) x4) (rowOf x5)) x6 (rowOf x7))) x8 (rowOf x9)) := by
  unfold val_main_v115 val_main_v114 val_main_v113 val_main_v112 val_main_v111
  rw [headOne_eq x0 x1 x2 x3 x4 x5 x6 x7, denseTwo_eq, tanh_eq_act]

/-- The reference's result is the network over the arrays computed from the edges. -/
theorem result_eq (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal)) (x10 : (⟨S32x1, .f32⟩ : BufTy).Contents (Elt Ideal)) (x11 : (⟨S1, .f32⟩ : BufTy).Contents (Elt Ideal)) :
    val_main_v119 (F := Ideal) x0 x1 x2 x3 x4 x5 x6 x7 x8 x9 x10 x11
      = net (gatherRows x1) (addRows x1) (colOf (coeff x1)) (colOf (invDeg x1)) x0 x2 (rowOf x3) x4 (rowOf x5) x6 (rowOf x7) x8 (rowOf x9) x10 (rowOf x11) := by
  unfold val_main_v119 val_main_v118 val_main_v117 val_main_v116
  rw [headTwo_eq x0 x1 x2 x3 x4 x5 x6 x7 x8 x9, denseThree_eq]
  rfl

end Cert.ReferenceIdeal.Side

end
-- ==== Proof.lean ====
/-
  The certificate of a two-layer graph convolution network with a three-layer head, computed in seven tiled steps
  among whole-array gathers and scatter-adds, against the same network written with whole-array operations only.

  Over the extended reals both programs compute one function of their arguments. Each tiled step — a matrix product,
  the scaling of the gathered edge rows, a layer's closing step, the head — processes a block of rows at a time, and
  its result array is the whole-array operation applied to its whole operands (the narrowing of a product's operands
  to a shorter float format is the identity there, and a product started from zero is the plain sum of products). The
  irregular operations — the gather of node rows along the edges and the scatter-add of edge rows at their target
  nodes, both driven by the integer edge array — are the same whole-array operations in both programs and are never
  opened. So the tiled program's result is the network `Cert.Gcn.net` of its arguments, the reference's result is the
  same network of its arguments, and arguments that agree give equal results. No property of the arguments beyond
  their agreement is used: nothing here needs the inputs to be finite.

  The frames of the two tiled programs are their generated frame certificates; the reference's frame is its run with
  the result dropped; the idealized program is the printed one read at the extended reals, nothing rewritten.
-/
import proofs.«112770_j81913616269326_1_alg».proof.Defs
import proofs.«112770_j81913616269326_1_alg».proof.Proof.Gen.Kernel
import proofs.«112770_j81913616269326_1_alg».proof.Proof.Gen.Kernel.Skeleton
import proofs.«112770_j81913616269326_1_alg».proof.Proof.Gen.Kernel.Launch
import proofs.«112770_j81913616269326_1_alg».proof.Proof.Gen.Kernel.Points
import proofs.«112770_j81913616269326_1_alg».proof.Proof.Gen.Kernel.Frame
import proofs.«112770_j81913616269326_1_alg».proof.Proof.Gen.KernelIdeal
import proofs.«112770_j81913616269326_1_alg».proof.Proof.Gen.KernelIdeal.Skeleton
import proofs.«112770_j81913616269326_1_alg».proof.Proof.Gen.KernelIdeal.Launch
import proofs.«112770_j81913616269326_1_alg».proof.Proof.Gen.KernelIdeal.Points
import proofs.«112770_j81913616269326_1_alg».proof.Proof.Gen.KernelIdeal.Frame
import proofs.«112770_j81913616269326_1_alg».proof.Proof.Gen.ReferenceIdeal
import proofs.«112770_j81913616269326_1_alg».proof.Proof.Gen.ReferenceIdeal.Run
import proofs.«112770_j81913616269326_1_alg».proof.Proof.Gen.ReferenceIdeal.Read
import proofs.«112770_j81913616269326_1_alg».proof.Proof.Gen.Pre_finite_inputs
import proofs.«112770_j81913616269326_1_alg».proof.Proof.KernelRun
import proofs.«112770_j81913616269326_1_alg».proof.Proof.KernelNet
import proofs.«112770_j81913616269326_1_alg».proof.Proof.RefSide
import Idealize.ShloMosaic.Adequacy
import Idealize.ShloMosaic.Init

set_option maxRecDepth 16384

noncomputable section

namespace Cert.Proof

open Idealize.ShloMosaic Idealize.SL.Sem

/-! ## The two programs read the graph's structure off the edge array by the same operations -/

section Graph

variable (x1 : (⟨Cert.KernelIdeal.S2x1600000, .i32⟩ : BufTy).Contents (Elt Ideal))

theorem gatherRows_agree : Cert.ReferenceIdeal.Side.gatherRows x1 = Cert.KernelIdeal.Side.gatherRows x1 := rfl
theorem addRows_agree : Cert.ReferenceIdeal.Side.addRows x1 = Cert.KernelIdeal.Side.addRows x1 := rfl
theorem coeff_agree : Cert.ReferenceIdeal.Side.coeff x1 = Cert.KernelIdeal.Side.coeff x1 := rfl
theorem invDeg_agree : Cert.ReferenceIdeal.Side.invDeg x1 = Cert.KernelIdeal.Side.invDeg x1 := rfl

end Graph

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the idealized program was printed. -/
theorem preserves : Cert.preserves_Kernel_KernelIdeal := trivial

/-- Both programs end with the network of their arguments in the result buffer; the arguments agree. -/
theorem algebraic : Cert.algebraic_KernelIdeal_ReferenceIdeal := by
  intro m ρ m' ρ' _ hagree
  refine ⟨fun c => Cert.Gcn.net (Cert.KernelIdeal.Side.gatherRows (m ((c.tc : Thread Cert.KernelIdeal.nD Cert.KernelIdeal.τ).loc Cert.KernelIdeal.main_arg1))) (Cert.KernelIdeal.Side.addRows (m ((c.tc : Thread Cert.KernelIdeal.nD Cert.KernelIdeal.τ).loc Cert.KernelIdeal.main_arg1)))
      (Cert.Gcn.colOf (Cert.KernelIdeal.Side.coeff (m ((c.tc : Thread Cert.KernelIdeal.nD Cert.KernelIdeal.τ).loc Cert.KernelIdeal.main_arg1)))) (Cert.Gcn.colOf (Cert.KernelIdeal.Side.invDeg (m ((c.tc : Thread Cert.KernelIdeal.nD Cert.KernelIdeal.τ).loc Cert.KernelIdeal.main_arg1))))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (Cert.Gcn.rowOf (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (Cert.Gcn.rowOf (m ((c.tc : Thread Cert.KernelIdeal.nD Cert.KernelIdeal.τ).loc Cert.KernelIdeal.main_arg5)))
      (m ((c.tc : Thread Cert.KernelIdeal.nD Cert.KernelIdeal.τ).loc Cert.KernelIdeal.main_arg6)) (Cert.Gcn.rowOf (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (Cert.Gcn.rowOf (m ((c.tc : Thread Cert.KernelIdeal.nD Cert.KernelIdeal.τ).loc Cert.KernelIdeal.main_arg9))) (m ((c.tc : Thread Cert.KernelIdeal.nD Cert.KernelIdeal.τ).loc Cert.KernelIdeal.main_arg10)) (Cert.Gcn.rowOf (m ((c.tc : Thread Cert.KernelIdeal.nD Cert.KernelIdeal.τ).loc Cert.KernelIdeal.main_arg11))), ?_, ?_⟩
  · exact (θ_run Cert.KernelIdeal.defs _ _).mono
      (fun r h c => ⟨(h c).1.trans (Cert.KernelIdeal.Side.result_eq m ρ c), (h c).2⟩)
      (Cert.KernelIdeal.Whole.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.Read.val_main_v119_eq, Cert.ReferenceIdeal.Side.result_eq, a0, a1, a2, a3, a4, a5, a6, a7, a8, a9,
      a10, a11, gatherRows_agree, addRows_agree, coeff_agree, invDeg_agree]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
